-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S16384x4096 .f32) (main_arg1 : FVec F S4096x4096 .f32) (main_arg2 : FVec F S4096 .f32) (main_arg3 : FVec F S4096x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S16384x4096 : Shape := ⟨2, ![16384, 4096]⟩
abbrev S4096x4096 : Shape := ⟨2, ![4096, 4096]⟩
abbrev S4096 : Shape := ⟨1, ![4096]⟩
abbrev S256x4096 : Shape := ⟨2, ![256, 4096]⟩
abbrev S1x4096 : Shape := ⟨2, ![1, 4096]⟩
abbrev S2048x256 : Shape := ⟨2, ![2048, 256]⟩
abbrev S1024x256 : Shape := ⟨2, ![1024, 256]⟩
abbrev S1x1024 : Shape := ⟨2, ![1, 1024]⟩
abbrev S2048x1024 : Shape := ⟨2, ![2048, 1024]⟩

abbrev nBuf : Space → Nat
  | .hbm => 7
  | .vmem => 15
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .bf16⟩
  | .hbm, ⟨5, _⟩ => ⟨S1x4096, .f32⟩
  | .hbm, ⟨6, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | .local _ .vmem, ⟨6, _⟩ => ⟨S2048x256, .f32⟩
  | .local _ .vmem, ⟨7, _⟩ => ⟨S2048x256, .f32⟩
  | .local _ .vmem, ⟨8, _⟩ => ⟨S1024x256, .bf16⟩
  | .local _ .vmem, ⟨9, _⟩ => ⟨S1024x256, .bf16⟩
  | .local _ .vmem, ⟨10, _⟩ => ⟨S1x1024, .f32⟩
  | .local _ .vmem, ⟨11, _⟩ => ⟨S1x1024, .f32⟩
  | .local _ .vmem, ⟨12, _⟩ => ⟨S2048x1024, .f32⟩
  | .local _ .vmem, ⟨13, _⟩ => ⟨S2048x1024, .f32⟩
  | .local _ .vmem, ⟨14, _⟩ => ⟨S2048x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 4, 16], ![false, false, false]⟩

def k1_cond2 (i : grid1.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x4096.size a
  hwx1_0 : ∀ i : grid1.Coords, EltTy.bits .f32 = 32 ∨ (Rect.block (s := S16384x4096) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x4096.size a
  hwx1_1 : ∀ i : grid1.Coords, EltTy.bits .bf16 = 32 ∨ (Rect.block (s := S4096x4096) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S16384x4096.size a
  hwx1_3 : ∀ i : grid1.Coords, EltTy.bits .f32 = 32 ∨ (Rect.block (s := S16384x4096) S2048x1024.size (cc1_transform_3 i) (hinb1_3 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x4096_S16384x4096_1_1_0_0_n_n_wf : DotDims.WF S16384x4096 S4096x4096 S16384x4096 [1] [1] [0] [0] [] []

variable [Facts₀]

def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.FrameK.AccDefs.lean ====
/-
  The second kernel region: the product accumulated over sixteen column blocks in a scratch buffer. What its three
  control cases share: the two conditions of the body in closed form over the grid (the first column block, where the
  scratch is reset; the last, where the bias row is added and the output block stored), where the output window is
  idle, the staging and scratch buffers by name, and the region invariant with the scratch named.
-/
import proofs.«156875_j52209622450452_2_alg».proof.Proof.Gen.Kernel.Launch
import proofs.«156875_j52209622450452_2_alg».proof.Proof.Gen.Kernel.Skeleton
import proofs.«156875_j52209622450452_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first condition: the point is at column block 0 (the scratch is reset there). -/
abbrev condFirst (i : grid1.Coords) : Prop := (Scalar.cmpi .ne (Scalar.extui (Scalar.cmpi .eq (BitVec.ofNat 32 (i 2).val) 0#32)) 0#32) = 1#1
/-- It holds at the points ≡ 0 (mod 16). -/
theorem hcondFirst : ∀ t : Fin cfg1.N, condFirst (grid1.coords t) ↔ t.val % 16 = 0 :=
  (by decide +kernel : ∀ t : Fin grid1.N, condFirst (grid1.coords t) ↔ t.val % 16 = 0)

/-- The body's second condition: the point is at the last column block (the output block is stored there). -/
abbrev condLast (i : grid1.Coords) : Prop := k1_cond2 i = 1#1
/-- It holds at the points ≡ 15 (mod 16). -/
theorem hcondLast : ∀ t : Fin cfg1.N, condLast (grid1.coords t) ↔ t.val % 16 = 15 :=
  (by decide +kernel : ∀ t : Fin grid1.N, condLast (grid1.coords t) ↔ t.val % 16 = 15)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last column block the output window is idle and not written back. -/
theorem idle1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
/-- At the last column block it is live. -/
theorem live1_3 : ∀ t : Fin cfg1.N, condLast (grid1.coords t) → cfg1.idle 3 (grid1.coords t) = false := by decide +kernel

/-- One staging buffer of the output window, through which its contents are stated. -/
abbrev VO : View sig .tc .vmem S2048x1024 .f32 := (Memref.whole cc1_stg3_0 : Memref sig .tc .vmem S2048x1024 .f32).view
/-- Each window's current staging buffer at point `t`, as the pipeline passes it, and its wholeness. -/
abbrev ms0 (t : Fin cfg1.N) : Memref sig .tc .vmem S2048x256 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x256 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S2048x1024 .f32 := win1_3.stage (cfg1.slots t 3)
abbrev hs3 (t : Fin cfg1.N) : (ms3 t).IsWhole := hstage1_3 ((cfg1.slots t 3).cast nbuf1_3)
/-- The scratch accumulator: a whole scoped buffer of the kernel's own. -/
abbrev scM : Memref sig .tc .vmem S2048x1024 .f32 := Memref.whole cc1_scratch0
abbrev VS : View sig .tc .vmem S2048x1024 .f32 := scM.view

/-- The other region's staging buffers, which this region never touches, each at some contents. -/
def idleBufs (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region's scoped rest: the other region's staging buffers and the scratch, each at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM fullShare d)) ∗ (∃ r, prngReg c r)) := by
  unfold Pipeline.ΦA; rw [scopedRest1_eq]; simp only [scM, owns_whole]; try rfl

/-- The scoped rest with the scratch set apart. -/
theorem PhiA1_split (c : Dev nD) :
    (Pipeline.ΦA spec1 c : sProp 𝕄) ⊢ iprop(iprop(idleBufs (F := F) c ∗ (∃ d, owns (c : Thread nD τ) scM fullShare d)) ∗ (∃ r, prngReg c r)) := by
  rw [PhiA1_eq]; unfold idleBufs
  iintro ⟨⟨A1, A2, A3, A4, A5, A6, HS⟩, Hg⟩
  isplitr [Hg]
  · isplitr [HS]
    · isplitl [A1]; · iexact A1
      isplitl [A2]; · iexact A2
      isplitl [A3]; · iexact A3
      isplitl [A4]; · iexact A4
      isplitl [A5]; · iexact A5
      iexact A6
    iexact HS
  iexact Hg

/-- And put back. -/
theorem PhiA1_join (c : Dev nD) :
    iprop(iprop(idleBufs (F := F) c ∗ (∃ d, owns (c : Thread nD τ) scM fullShare d)) ∗ (∃ r, prngReg c r)) ⊢ (Pipeline.ΦA spec1 c : sProp 𝕄) := by
  rw [PhiA1_eq]; unfold idleBufs
  iintro ⟨⟨⟨A1, A2, A3, A4, A5, A6⟩, HS⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    iexact HS
  iexact Hg

end Cert.Kernel.Fr

end
-- ==== Proof.FrameK.RunFirst.lean ====
/-
  The accumulating body at the first column block: the scratch is reset to the zero word and the block's product
  added to it; the output window is left untouched.
-/
import proofs.«156875_j52209622450452_2_alg».proof.Proof.FrameK.AccDefs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The pieces the body's stores leave in the scratch at a point of the first column block, with the proof that on
    whole staging buffers — the inputs' at their contents, the idle output's at contents handed back untouched, the
    scratch at anything — the body runs to the continuation holding the scratch with those pieces written. -/
noncomputable def runFirst (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : condFirst i) (hcL : ¬condLast i)
    (x0 : Vec F S2048x256 .f32) (x1 : Vec F S1024x256 .bf16) (x2 : Vec F S1x1024 .f32) :
    Σ' (L3 : List (View.Piece (Elt F) S2048x1024 .f32)), { LS : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Fr

end
-- ==== Proof.FrameK.RunMid.lean ====
/-
  The accumulating body at a column block that is neither the first nor the last: the block's product is added to what
  the point before left in the scratch; the output window is left untouched.
-/
import proofs.«156875_j52209622450452_2_alg».proof.Proof.FrameK.RunFirst

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The pieces the body's stores leave in the scratch at such a point, with the proof that the body runs from the
    scratch at `xs` to the scratch with those pieces written. -/
noncomputable def runMid (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : ¬condLast i)
    (x0 : Vec F S2048x256 .f32) (x1 : Vec F S1024x256 .bf16) (x2 : Vec F S1x1024 .f32) (xs : Vec F S2048x1024 .f32) :
    Σ' (L3 : List (View.Piece (Elt F) S2048x1024 .f32)), { LS : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Fr

end
-- ==== Proof.FrameK.RunLast.lean ====
/-
  The accumulating body at the last column block: the block's product is added to what the point before left in the
  scratch, and the scratch plus the bias row is stored into the output window's buffer.
-/
import proofs.«156875_j52209622450452_2_alg».proof.Proof.FrameK.RunMid

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The pieces the body's stores leave in the output buffer and in the scratch at a point of the last column block,
    with the proof that the body runs from the scratch at `xs` and the output's buffer at anything to both with
    those pieces written. -/
noncomputable def runLast (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : condLast i)
    (x0 : Vec F S2048x256 .f32) (x1 : Vec F S1024x256 .bf16) (x2 : Vec F S1x1024 .f32) (xs : Vec F S2048x1024 .f32) :
    Σ' (L3 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Fr

end
-- ==== Proof.FrameK.Acc.lean ====
/-
  The second kernel region as proof data. What the scratch holds after each point is stated by recursion on the
  point: at a first column block the reset scratch plus that block's product, otherwise what the point before left
  plus this block's product; at a last column block the output window's buffer takes the scratch plus the bias row.
  The region invariant names the scratch's contents between points, so that each point finds what the one before left.
-/
import proofs.«156875_j52209622450452_2_alg».proof.Proof.FrameK.RunLast

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem abefore0_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)
theorem abefore1_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)
theorem abefore2_of {c : Dev nD} (dat : Dat τ (Elt F) Unit ℕ (UR sig nD τ) ℕ cfg1 c) (hA : dat.A 2 = V c (Pipeline.arrRef spec1 2))
    (hafter : ∀ t, dat.after 2 t = ablk V c 2 t) (t : Fin cfg1.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)

end

/-! ## What each case leaves -/

/-- The first-block case's scratch pieces cover the scratch. -/
theorem scoverFirst (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : condFirst i) (hcL : ¬condLast i)
    (x0 : Vec F S2048x256 .f32) (x1 : Vec F S1024x256 .bf16) (x2 : Vec F S1x1024 .f32) (y : S2048x1024.Idx) :
    ∃ pc ∈ (runFirst c i arg3 harg3 arg4 harg4 arg5 harg5 arg6 harg6 arg7 harg7 hcF hcL x0 x1 x2).2.1, y ∈ pc.1.set :=
  View.cover_of_tiledL (runFirst c i arg3 harg3 arg4 harg4 arg5 harg5 arg6 harg6 arg7 harg7 hcF hcL x0 x1 x2).2.1 S2048x1024.size (by sl_kernel_rfl) y
/-- What it leaves in the scratch. -/
def soutFirst (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : condFirst i) (hcL : ¬condLast i)
    (x0 : Vec F S2048x256 .f32) (x1 : Vec F S1024x256 .bf16) (x2 : Vec F S1x1024 .f32) : Vec F S2048x1024 .f32 :=
  VS.read (Elt F) (VS.writes (Elt F) VS.junk (runFirst c i arg3 harg3 arg4 harg4 arg5 harg5 arg6 harg6 arg7 harg7 hcF hcL x0 x1 x2).2.1)
/-- It stores nothing into the output window: a placeholder nothing consults. -/
def outFirst (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : condFirst i) (hcL : ¬condLast i)
    (x0 : Vec F S2048x256 .f32) (x1 : Vec F S1024x256 .bf16) (x2 : Vec F S1x1024 .f32) : Vec F S2048x1024 .f32 :=
  VO.read (Elt F) (VO.writes (Elt F) VO.junk (runFirst c i arg3 harg3 arg4 harg4 arg5 harg5 arg6 harg6 arg7 harg7 hcF hcL x0 x1 x2).1)

theorem scoverMid (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : ¬condLast i)
    (x0 : Vec F S2048x256 .f32) (x1 : Vec F S1024x256 .bf16) (x2 : Vec F S1x1024 .f32) (xs : Vec F S2048x1024 .f32) (y : S2048x1024.Idx) :
    ∃ pc ∈ (runMid c i arg3 harg3 arg4 harg4 arg5 harg5 arg6 harg6 arg7 harg7 hcF hcL x0 x1 x2 xs).2.1, y ∈ pc.1.set :=
  View.cover_of_tiledL (runMid c i arg3 harg3 arg4 harg4 arg5 harg5 arg6 harg6 arg7 harg7 hcF hcL x0 x1 x2 xs).2.1 S2048x1024.size (by sl_kernel_rfl) y
def soutMid (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : ¬condLast i)
    (x0 : Vec F S2048x256 .f32) (x1 : Vec F S1024x256 .bf16) (x2 : Vec F S1x1024 .f32) (xs : Vec F S2048x1024 .f32) : Vec F S2048x1024 .f32 :=
  VS.read (Elt F) (VS.writes (Elt F) VS.junk (runMid c i arg3 harg3 arg4 harg4 arg5 harg5 arg6 harg6 arg7 harg7 hcF hcL x0 x1 x2 xs).2.1)
def outMid (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : ¬condLast i)
    (x0 : Vec F S2048x256 .f32) (x1 : Vec F S1024x256 .bf16) (x2 : Vec F S1x1024 .f32) (xs : Vec F S2048x1024 .f32) : Vec F S2048x1024 .f32 :=
  VO.read (Elt F) (VO.writes (Elt F) VO.junk (runMid c i arg3 harg3 arg4 harg4 arg5 harg5 arg6 harg6 arg7 harg7 hcF hcL x0 x1 x2 xs).1)

theorem scoverLast (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : condLast i)
    (x0 : Vec F S2048x256 .f32) (x1 : Vec F S1024x256 .bf16) (x2 : Vec F S1x1024 .f32) (xs : Vec F S2048x1024 .f32) (y : S2048x1024.Idx) :
    ∃ pc ∈ (runLast c i arg3 harg3 arg4 harg4 arg5 harg5 arg6 harg6 arg7 harg7 hcF hcL x0 x1 x2 xs).2.1, y ∈ pc.1.set :=
  View.cover_of_tiledL (runLast c i arg3 harg3 arg4 harg4 arg5 harg5 arg6 harg6 arg7 harg7 hcF hcL x0 x1 x2 xs).2.1 S2048x1024.size (by sl_kernel_rfl) y
def soutLast (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : condLast i)
    (x0 : Vec F S2048x256 .f32) (x1 : Vec F S1024x256 .bf16) (x2 : Vec F S1x1024 .f32) (xs : Vec F S2048x1024 .f32) : Vec F S2048x1024 .f32 :=
  VS.read (Elt F) (VS.writes (Elt F) VS.junk (runLast c i arg3 harg3 arg4 harg4 arg5 harg5 arg6 harg6 arg7 harg7 hcF hcL x0 x1 x2 xs).2.1)
/-- The last-block case's output pieces cover the output window's buffer. -/
theorem coverLast (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : condLast i)
    (x0 : Vec F S2048x256 .f32) (x1 : Vec F S1024x256 .bf16) (x2 : Vec F S1x1024 .f32) (xs : Vec F S2048x1024 .f32) (y : S2048x1024.Idx) :
    ∃ pc ∈ (runLast c i arg3 harg3 arg4 harg4 arg5 harg5 arg6 harg6 arg7 harg7 hcF hcL x0 x1 x2 xs).1, y ∈ pc.1.set :=
  View.cover_of_tiledL (runLast c i arg3 harg3 arg4 harg4 arg5 harg5 arg6 harg6 arg7 harg7 hcF hcL x0 x1 x2 xs).1 S2048x1024.size (by sl_kernel_rfl) y
def outLast (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : condLast i)
    (x0 : Vec F S2048x256 .f32) (x1 : Vec F S1024x256 .bf16) (x2 : Vec F S1x1024 .f32) (xs : Vec F S2048x1024 .f32) : Vec F S2048x1024 .f32 :=
  VO.read (Elt F) (VO.writes (Elt F) VO.junk (runLast c i arg3 harg3 arg4 harg4 arg5 harg5 arg6 harg6 arg7 harg7 hcF hcL x0 x1 x2 xs).1)

section
variable (V : (c : Dev nD) → (b : Ref sig .tc) → Buf (Elt F) ((c : Thread nD τ).loc b))

/-! ## Point by point -/

/-- What the output window's buffer and the scratch hold after the body at position `n` (a pair: the output
    window's, then the scratch's): the case the closed forms select at `n`, run at the point's buffers and input blocks,
    over what the point before left in the scratch. -/
def accAt (c : Dev nD) : (n : ℕ) → n < cfg1.N → Vec F S2048x1024 .f32 × Vec F S2048x1024 .f32
  | 0, hn => (outFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondFirst ⟨0, hn⟩).mpr (Nat.zero_mod _)) (fun h => (fun h => by (try dsimp only at h); omega) ((hcondLast ⟨0, hn⟩).mp h)) (ablk V c 0 ⟨0, hn⟩) (ablk V c 1 ⟨0, hn⟩) (ablk V c 2 ⟨0, hn⟩), soutFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondFirst ⟨0, hn⟩).mpr (Nat.zero_mod _)) (fun h => (fun h => by (try dsimp only at h); omega) ((hcondLast ⟨0, hn⟩).mp h)) (ablk V c 0 ⟨0, hn⟩) (ablk V c 1 ⟨0, hn⟩) (ablk V c 2 ⟨0, hn⟩))
  | n + 1, hn =>
    if h0 : (n + 1) % 16 = 0 then
      if h1 : (n + 1) % 16 = 15 then
        False.elim (by omega)
      else
        (outFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondFirst ⟨n + 1, hn⟩).mpr h0) (fun h => h1 ((hcondLast ⟨n + 1, hn⟩).mp h)) (ablk V c 0 ⟨n + 1, hn⟩) (ablk V c 1 ⟨n + 1, hn⟩) (ablk V c 2 ⟨n + 1, hn⟩), soutFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondFirst ⟨n + 1, hn⟩).mpr h0) (fun h => h1 ((hcondLast ⟨n + 1, hn⟩).mp h)) (ablk V c 0 ⟨n + 1, hn⟩) (ablk V c 1 ⟨n + 1, hn⟩) (ablk V c 2 ⟨n + 1, hn⟩))
    else
      if h1 : (n + 1) % 16 = 15 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) ((hcondLast ⟨n + 1, hn⟩).mpr h1) (ablk V c 0 ⟨n + 1, hn⟩) (ablk V c 1 ⟨n + 1, hn⟩) (ablk V c 2 ⟨n + 1, hn⟩) (accAt c n (Nat.lt_of_succ_lt hn)).2, soutLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) ((hcondLast ⟨n + 1, hn⟩).mpr h1) (ablk V c 0 ⟨n + 1, hn⟩) (ablk V c 1 ⟨n + 1, hn⟩) (ablk V c 2 ⟨n + 1, hn⟩) (accAt c n (Nat.lt_of_succ_lt hn)).2)
      else
        (outMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) (fun h => h1 ((hcondLast ⟨n + 1, hn⟩).mp h)) (ablk V c 0 ⟨n + 1, hn⟩) (ablk V c 1 ⟨n + 1, hn⟩) (ablk V c 2 ⟨n + 1, hn⟩) (accAt c n (Nat.lt_of_succ_lt hn)).2, soutMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) (fun h => h1 ((hcondLast ⟨n + 1, hn⟩).mp h)) (ablk V c 0 ⟨n + 1, hn⟩) (ablk V c 1 ⟨n + 1, hn⟩) (ablk V c 2 ⟨n + 1, hn⟩) (accAt c n (Nat.lt_of_succ_lt hn)).2)

/-- `accAt` at a point of a first column block. -/
theorem accAt_first (c : Dev nD) (t : Fin cfg1.N) (h0 : t.val % 16 = 0) (h1 : ¬t.val % 16 = 15) :
    accAt V c t.val t.isLt = (outFirst c (grid1.coords t) (ms0 t) (hs0 t) (ms1 t) (hs1 t) (ms2 t) (hs2 t) (ms3 t) (hs3 t) scM (Memref.isWhole_whole _) ((hcondFirst t).mpr h0) (fun h => h1 ((hcondLast t).mp h)) (ablk V c 0 t) (ablk V c 1 t) (ablk V c 2 t), soutFirst c (grid1.coords t) (ms0 t) (hs0 t) (ms1 t) (hs1 t) (ms2 t) (hs2 t) (ms3 t) (hs3 t) scM (Memref.isWhole_whole _) ((hcondFirst t).mpr h0) (fun h => h1 ((hcondLast t).mp h)) (ablk V c 0 t) (ablk V c 1 t) (ablk V c 2 t)) := by
  obtain ⟨n, hn⟩ := t
  cases n with
  | zero => exact rfl
  | succ n => exact (dif_pos h0).trans ((dif_neg h1).trans rfl)

/-- `accAt` at a point that is neither first nor last: over what the point before left. -/
theorem accAt_mid (c : Dev nD) (t : Fin cfg1.N) (h0 : ¬t.val % 16 = 0) (h1 : ¬t.val % 16 = 15) :
    accAt V c t.val t.isLt = (outMid c (grid1.coords t) (ms0 t) (hs0 t) (ms1 t) (hs1 t) (ms2 t) (hs2 t) (ms3 t) (hs3 t) scM (Memref.isWhole_whole _) (fun h => h0 ((hcondFirst t).mp h)) (fun h => h1 ((hcondLast t).mp h)) (ablk V c 0 t) (ablk V c 1 t) (ablk V c 2 t) (accAt V c (t.val - 1) (Nat.lt_of_le_of_lt (Nat.sub_le _ _) t.isLt)).2, soutMid c (grid1.coords t) (ms0 t) (hs0 t) (ms1 t) (hs1 t) (ms2 t) (hs2 t) (ms3 t) (hs3 t) scM (Memref.isWhole_whole _) (fun h => h0 ((hcondFirst t).mp h)) (fun h => h1 ((hcondLast t).mp h)) (ablk V c 0 t) (ablk V c 1 t) (ablk V c 2 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `accAt` at a point of a last column block: over what the point before left. -/
theorem accAt_last (c : Dev nD) (t : Fin cfg1.N) (h0 : ¬t.val % 16 = 0) (h1 : t.val % 16 = 15) :
    accAt V c t.val t.isLt = (outLast c (grid1.coords t) (ms0 t) (hs0 t) (ms1 t) (hs1 t) (ms2 t) (hs2 t) (ms3 t) (hs3 t) scM (Memref.isWhole_whole _) (fun h => h0 ((hcondFirst t).mp h)) ((hcondLast t).mpr h1) (ablk V c 0 t) (ablk V c 1 t) (ablk V c 2 t) (accAt V c (t.val - 1) (Nat.lt_of_le_of_lt (Nat.sub_le _ _) t.isLt)).2, soutLast c (grid1.coords t) (ms0 t) (hs0 t) (ms1 t) (hs1 t) (ms2 t) (hs2 t) (ms3 t) (hs3 t) scM (Memref.isWhole_whole _) (fun h => h0 ((hcondFirst t).mp h)) ((hcondLast t).mpr h1) (ablk V c 0 t) (ablk V c 1 t) (ablk V c 2 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer at anything; afterwards the
    other region's buffers at anything, the scratch at what the point before left, the generator register at some state. -/
def PhiS (c : Dev nD) : (n : ℕ) → n ≤ cfg1.N → sProp 𝕄
  | 0, _ => Pipeline.ΦA spec1 c
  | n + 1, hn => iprop(iprop(idleBufs (F := F) c ∗ owns (c : Thread nD τ) scM fullShare ((accAt V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(idleBufs (F := F) c ∗ owns (c : Thread nD τ) scM fullShare ((accAt V c n hn).2)) ∗ (∃ r, prngReg c r)) := rfl

theorem PhiS_pos (c : Dev nD) (n : ℕ) (h : n ≤ cfg1.N) (hz : n ≠ 0) :
    PhiS V c n h = iprop(iprop(idleBufs (F := F) c ∗ owns (c : Thread nD τ) scM fullShare ((accAt V c (n - 1) (by omega)).2)) ∗ (∃ r, prngReg c r)) := by
  cases n with
  | zero => exact absurd rfl hz
  | succ n => rfl

/-! ## The proof data -/

/-- The proof data of the accumulating region on core `c`: the arrays as the region finds them; after the body at
    point `t` each input's buffer at its block and the output's at `accAt`'s first component; the invariant `PhiS`;
    nothing owed. -/
def adat (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => ablk V c 2 t
    | ⟨3, _⟩ => (accAt V c t.val t.isLt).1
  Φ t := PhiS V c t.val (Nat.le_of_lt_succ t.isLt)
  q _ := fullShare
  owed _ := 0

theorem aA_eq (c : Dev nD) (w : Fin cfg1.W) : (adat V c).A w = V c (Pipeline.arrRef spec1 w) := by
  dsimp only [adat]

theorem PhiS_castSucc (c : Dev nD) (t : Fin cfg1.N) :
    (adat V c).Φ t.castSucc = PhiS V c t.val (Nat.le_of_lt t.isLt) := by
  dsimp only [adat]; simp only [Fin.coe_castSucc]

theorem aafter0 (c : Dev nD) (t : Fin cfg1.N) : (adat V c).after 0 t = ablk V c 0 t := by dsimp only [adat]
theorem aafter1 (c : Dev nD) (t : Fin cfg1.N) : (adat V c).after 1 t = ablk V c 1 t := by dsimp only [adat]
theorem aafter2 (c : Dev nD) (t : Fin cfg1.N) : (adat V c).after 2 t = ablk V c 2 t := by dsimp only [adat]
theorem aafter3 (c : Dev nD) (t : Fin cfg1.N) : (adat V c).after 3 t = (accAt V c t.val t.isLt).1 := by dsimp only [adat]

theorem abefore0 (c : Dev nD) (t : Fin cfg1.N) (d) : (adat V c).before 0 t d = ablk V c 0 t :=
  abefore0_of V (adat V c) (aA_eq V c 0) (aafter0 V c) t d
theorem abefore1 (c : Dev nD) (t : Fin cfg1.N) (d) : (adat V c).before 1 t d = ablk V c 1 t :=
  abefore1_of V (adat V c) (aA_eq V c 1) (aafter1 V c) t d
theorem abefore2 (c : Dev nD) (t : Fin cfg1.N) (d) : (adat V c).before 2 t d = ablk V c 2 t :=
  abefore2_of V (adat V c) (aA_eq V c 2) (aafter2 V c) t d

end

end Cert.Kernel.Fr

end
-- ==== Proof.FrameK.AccBody.lean ====
/-
  The accumulating region's body obligation: at every point the closed forms of the two conditions say which case the
  point is in, the invariant hands the body the scratch at what the point before left, and takes it back at this
  point's contents.
-/
import proofs.«156875_j52209622450452_2_alg».proof.Proof.FrameK.Acc

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, -/
def aPre (c : Dev nD) (t : Fin cfg1.N) : sProp 𝕄 :=
  iprop((adat V c).Φ t.castSucc ∗ (adat V c).owesAt () t.castSucc
    ∗ (∃ d, owns (c : Thread nD τ) (ms0 t) fullShare ((adat V c).before 0 t d))
    ∗ (∃ d, owns (c : Thread nD τ) (ms1 t) fullShare ((adat V c).before 1 t d))
    ∗ (∃ d, owns (c : Thread nD τ) (ms2 t) fullShare ((adat V c).before 2 t d))
    ∗ (∃ d, owns (c : Thread nD τ) (ms3 t) fullShare ((adat V c).before 3 t d)))

/-- and what it returns. -/
def aPost (c : Dev nD) (t : Fin cfg1.N) : sProp 𝕄 :=
  iprop((adat V c).Φ t.succ ∗ (adat V c).owesAt () t.succ
    ∗ (adat V c).leavesExact 0 t
    ∗ (adat V c).leavesExact 1 t
    ∗ (adat V c).leavesExact 2 t
    ∗ (adat V c).leavesExact 3 t)

set_option maxHeartbeats 4800000 in
theorem acc_point (c : Dev nD) (t : Fin cfg1.N) :
    aPre V c t ⊢ wp frame (wpE (defs₀ (F := F)) Variants.none c none) Set.univ (bodyAt1 t) (fun _ => aPost V c t) := by
  unfold aPre aPost bodyAt1
  simp only [abefore0, abefore1, abefore2]
  rw [show (adat V c).owesAt () t.succ = (adat V c).owesAt () t.castSucc from rfl]
  rw [show (adat V c).Φ t.succ = PhiS V c (t.val + 1) t.isLt from rfl, PhiS_succ]
  have hN : t.val < 512 := lt_of_lt_of_eq t.isLt (show cfg1.N = 512 from N_1)
  by_cases h0 : t.val % 16 = 0
  · by_cases h1 : t.val % 16 = 15
    · exfalso; omega
    · have hF : condFirst (grid1.coords t) := (hcondFirst t).mpr h0
      have hL : ¬condLast (grid1.coords t) := fun h => h1 ((hcondLast t).mp h)
      rw [show (adat V c).leavesExact 0 t = owns (c : Thread nD τ) (ms0 t) fullShare ((adat V c).after 0 t) from by
        unfold Dat.leavesExact; rw [live1_0 t], aafter0]
      rw [show (adat V c).leavesExact 1 t = owns (c : Thread nD τ) (ms1 t) fullShare ((adat V c).after 1 t) from by
        unfold Dat.leavesExact; rw [live1_1 t], aafter1]
      rw [show (adat V c).leavesExact 2 t = owns (c : Thread nD τ) (ms2 t) fullShare ((adat V c).after 2 t) from by
        unfold Dat.leavesExact; rw [live1_2 t], aafter2]
      rw [Dat.leavesExact_idle (adat V c) 3 t (idle1_3 t hL) (noFlush1_3 t hL)]
      rw [accAt_first V c t h0 h1]
      unfold soutFirst; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩⟩
        ihave HΦ' := PhiA1_split (F := F) c $$ HΦ
        icases HΦ' with ⟨⟨HI, HS⟩, Hg⟩
        iapply ((runFirst c (grid1.coords t) _ _ _ _ _ _ _ _ _ _ hF hL (ablk V c 0 t) (ablk V c 1 t) (ablk V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HI Hg]
        · isplitl [HS HI]
          · isplitl [HI]; · iexact HI
            unfold owns; iexists _; isplitr
            swap; · iexact HS
            ipureintro; exact View.read_writes_of_cover _ _ _ _ _ (scoverFirst c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HI, HS⟩, Hg⟩, Ho, ⟨%d0, H0⟩, ⟨%d1, H1⟩, ⟨%d2, H2⟩, ⟨%d3, H3⟩⟩
        iapply ((runFirst c (grid1.coords t) _ _ _ _ _ _ _ _ _ _ hF hL (ablk V c 0 t) (ablk V c 1 t) (ablk V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS HI Hg]
        · isplitl [HS HI]
          · isplitl [HI]; · iexact HI
            unfold owns; iexists _; isplitr
            swap; · iexact HS
            ipureintro; exact View.read_writes_of_cover _ _ _ _ _ (scoverFirst c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hF : ¬condFirst (grid1.coords t) := fun h => h0 ((hcondFirst t).mp h)
    have hz : t.val ≠ 0 := fun h => h0 (by rw [h])
    by_cases h1 : t.val % 16 = 15
    · have hL : condLast (grid1.coords t) := (hcondLast t).mpr h1
      rw [show (adat V c).leavesExact 0 t = owns (c : Thread nD τ) (ms0 t) fullShare ((adat V c).after 0 t) from by
        unfold Dat.leavesExact; rw [live1_0 t], aafter0]
      rw [show (adat V c).leavesExact 1 t = owns (c : Thread nD τ) (ms1 t) fullShare ((adat V c).after 1 t) from by
        unfold Dat.leavesExact; rw [live1_1 t], aafter1]
      rw [show (adat V c).leavesExact 2 t = owns (c : Thread nD τ) (ms2 t) fullShare ((adat V c).after 2 t) from by
        unfold Dat.leavesExact; rw [live1_2 t], aafter2]
      rw [show (adat V c).leavesExact 3 t = owns (c : Thread nD τ) (ms3 t) fullShare ((adat V c).after 3 t) from by
        unfold Dat.leavesExact; rw [live1_3 t hL], aafter3]
      rw [accAt_last V c t h0 h1]
      unfold outLast soutLast; (try dsimp only)
      · rw [PhiS_castSucc V c t, PhiS_pos V c _ _ hz]
        iintro ⟨⟨⟨HI, HS⟩, Hg⟩, Ho, ⟨%d0, H0⟩, ⟨%d1, H1⟩, ⟨%d2, H2⟩, ⟨%d3, H3⟩⟩
        iapply ((runLast c (grid1.coords t) _ _ _ _ _ _ _ _ _ _ hF hL (ablk V c 0 t) (ablk V c 1 t) (ablk V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS HI Hg]
        · isplitl [HS HI]
          · isplitl [HI]; · iexact HI
            unfold owns; iexists _; isplitr
            swap; · iexact HS
            ipureintro; exact View.read_writes_of_cover _ _ _ _ _ (scoverLast c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverLast c _ _ _ _ _ _ _ _ _ _ _ _ _ _ _ _ _)
    · have hL : ¬condLast (grid1.coords t) := fun h => h1 ((hcondLast t).mp h)
      rw [show (adat V c).leavesExact 0 t = owns (c : Thread nD τ) (ms0 t) fullShare ((adat V c).after 0 t) from by
        unfold Dat.leavesExact; rw [live1_0 t], aafter0]
      rw [show (adat V c).leavesExact 1 t = owns (c : Thread nD τ) (ms1 t) fullShare ((adat V c).after 1 t) from by
        unfold Dat.leavesExact; rw [live1_1 t], aafter1]
      rw [show (adat V c).leavesExact 2 t = owns (c : Thread nD τ) (ms2 t) fullShare ((adat V c).after 2 t) from by
        unfold Dat.leavesExact; rw [live1_2 t], aafter2]
      rw [Dat.leavesExact_idle (adat V c) 3 t (idle1_3 t hL) (noFlush1_3 t hL)]
      rw [accAt_mid V c t h0 h1]
      unfold soutMid; (try dsimp only)
      · rw [PhiS_castSucc V c t, PhiS_pos V c _ _ hz]
        iintro ⟨⟨⟨HI, HS⟩, Hg⟩, Ho, ⟨%d0, H0⟩, ⟨%d1, H1⟩, ⟨%d2, H2⟩, ⟨%d3, H3⟩⟩
        iapply ((runMid c (grid1.coords t) _ _ _ _ _ _ _ _ _ _ hF hL (ablk V c 0 t) (ablk V c 1 t) (ablk V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HI Hg]
        · isplitl [HS HI]
          · isplitl [HI]; · iexact HI
            unfold owns; iexists _; isplitr
            swap; · iexact HS
            ipureintro; exact View.read_writes_of_cover _ _ _ _ _ (scoverMid c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body obligation of the accumulating region, at every point. -/
theorem acc_obligation (c : Dev nD) : BodyObligation (adat (F := F) V c) (defs₀ (F := F)) Variants.none () Set.univ := fun t => by
  rw [bigSep_W1, bigSep_W1]
  exact acc_point V c t

/-- What the launch hands the region is the invariant before the first point. -/
theorem acc_in (c : Dev nD) : Pipeline.ΦA spec1 c ⊢ (adat V c).Φ 0 := by
  rw [show (adat V c).Φ 0 = PhiS V c 0 (Nat.zero_le _) from rfl, PhiS_zero V c 0 _ rfl]
  try exact Idealize.SL.BI.Entails.refl _

/-- After any point but the first the invariant gives the scoped rest back: the scratch's named contents are forgotten. -/
theorem acc_out_at (c : Dev nD) (t : Fin (cfg1.N + 1)) (ht : t.val ≠ 0) : (adat V c).Φ t ⊢ Pipeline.ΦA spec1 c := by
  rw [show (adat V c).Φ t = PhiS V c t.val (Nat.le_of_lt_succ t.isLt) from rfl, PhiS_pos V c _ _ ht]
  iintro ⟨⟨HI, HS⟩, Hg⟩
  iapply (PhiA1_join (F := F) c)
  isplitr [Hg]
  · isplitl [HI]; · iexact HI
    iexists _; iexact HS
  iexact Hg

theorem acc_out (c : Dev nD) : (adat V c).Φ (Fin.last cfg1.N) ⊢ Pipeline.ΦA spec1 c :=
  acc_out_at V c _ (by rw [Fin.val_last]; have : cfg1.N = 512 := N_1; omega)

end

end Cert.Kernel.Fr

end
-- ==== Proof.FrameK.Mask.lean ====
/-
  The first kernel region: the pass that multiplies the weight by the mask, one block of 256 rows per grid point.
  Stated at the contents `V` the region finds in the core's buffers: each input window's staging buffer holds its
  block of its array at every point, the body stores the product of the two blocks into the output window's buffer,
  and nothing else is touched.
-/
import proofs.«156875_j52209622450452_2_alg».proof.Proof.Gen.Kernel.Launch
import proofs.«156875_j52209622450452_2_alg».proof.Proof.Gen.Kernel.Skeleton
import proofs.«156875_j52209622450452_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def mblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds its block at every point. -/
theorem mbefore0_of {c : Dev nD} (dat : Dat τ (Elt F) Unit ℕ (UR sig nD τ) ℕ cfg0 c) (hA : dat.A 0 = V c (Pipeline.arrRef spec0 0))
    (hafter : ∀ t, dat.after 0 t = mblk V c 0 t) (t : Fin cfg0.N) (d) : dat.before 0 t d = mblk V c 0 t :=
  (dat.before_in_eq_fetched 0 rfl (fun _ => rfl) (fun _ _ _ => rfl) (fun t => by rw [hafter]; unfold Dat.blockOf mblk; rw [hA]; try rfl) t d).trans
    (by unfold Dat.fetched Dat.blockOf mblk; rw [hA]; try rfl)

/-- The mask window's staging buffer holds its block at every point. -/
theorem mbefore1_of {c : Dev nD} (dat : Dat τ (Elt F) Unit ℕ (UR sig nD τ) ℕ cfg0 c) (hA : dat.A 1 = V c (Pipeline.arrRef spec0 1))
    (hafter : ∀ t, dat.after 1 t = mblk V c 1 t) (t : Fin cfg0.N) (d) : dat.before 1 t d = mblk V c 1 t :=
  (dat.before_in_eq_fetched 1 rfl (fun _ => rfl) (fun _ _ _ => rfl) (fun t => by rw [hafter]; unfold Dat.blockOf mblk; rw [hA]; try rfl) t d).trans
    (by unfold Dat.fetched Dat.blockOf mblk; rw [hA]; try rfl)

/-- The whole 256 × 4096 block as a rectangle. -/
abbrev rM : Rect S256x4096 := Rect.unit (s := S256x4096) ![0, 0] S256x4096.size inb_S256x4096_S256x4096_0_0

/-- What the body leaves in the output window's buffer: its one store, the product of the two input blocks. -/
def mout (x0 x1 : Vec F S256x4096 .f32) : Vec F S256x4096 .bf16 :=
  View.canon [⟨rM, k0_pay1 (View.ld x0 rM) (View.ld x1 rM)⟩]

/-- The one store covers the buffer. -/
theorem mcover (p0 : Vec F S256x4096 .bf16) (y : S256x4096.Idx) :
    ∃ pc ∈ ([⟨rM, p0⟩] : List (View.Piece (Elt F) S256x4096 .bf16)), y ∈ pc.1.set :=
  View.cover_of_tiled [⟨rM, p0⟩] S256x4096.size (by rfl) y

set_option maxHeartbeats 1000000 in
/-- The body on whole staging buffers, the inputs' at `x0`, `x1` and the output's at anything, runs and leaves the
    inputs as they were and the output at `mout x0 x1`. -/
theorem mask_body (c : Dev nD) (E : Set ℕ) (i : grid0.Coords) (arg1 : Memref sig .tc .vmem S256x4096 .f32) (harg1 : arg1.IsWhole)
    (arg2 : Memref sig .tc .vmem S256x4096 .f32) (harg2 : arg2.IsWhole) (arg3 : Memref sig .tc .vmem S256x4096 .bf16) (harg3 : arg3.IsWhole)
    (x0 x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (mout x0 x1)) -∗ K ⟨⟩))
      ⊢ wp frame (wpE (defs₀ (F := F)) Variants.none c none) E (cc0__mask_kernel i arg1 harg1 arg2 harg2 arg3 harg3) K := by
  simp only [cc0__mask_kernel_eq_skeleton]; unfold cc0__mask_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (mcover _)

/-- The proof data of the mask pass on core `c`: the arrays as the region finds them; after the body at point `t`
    each input's buffer at its block and the output's at the product of the two blocks; nothing owed. -/
def mdat (c : Dev nD) : Dat τ (Elt F) Unit ℕ (UR sig nD τ) ℕ cfg0 c where
  A w := V c (Pipeline.arrRef spec0 w)
  after w t := match w with
    | ⟨0, _⟩ => mblk V c 0 t
    | ⟨1, _⟩ => mblk V c 1 t
    | ⟨2, _⟩ => mout (mblk V c 0 t) (mblk V c 1 t)
  Φ _ := Pipeline.ΦA spec0 c
  q _ := fullShare
  owed _ := 0

theorem mA_eq (c : Dev nD) (w : Fin cfg0.W) : (mdat V c).A w = V c (Pipeline.arrRef spec0 w) := by
  dsimp only [mdat]

theorem mafter0 (c : Dev nD) (t : Fin cfg0.N) : (mdat V c).after 0 t = mblk V c 0 t := by dsimp only [mdat]
theorem mafter1 (c : Dev nD) (t : Fin cfg0.N) : (mdat V c).after 1 t = mblk V c 1 t := by dsimp only [mdat]
theorem mafter2 (c : Dev nD) (t : Fin cfg0.N) : (mdat V c).after 2 t = mout (mblk V c 0 t) (mblk V c 1 t) := by dsimp only [mdat]

theorem mbefore0 (c : Dev nD) (t : Fin cfg0.N) (d) : (mdat V c).before 0 t d = mblk V c 0 t :=
  mbefore0_of V (mdat V c) (mA_eq V c 0) (mafter0 V c) t d
theorem mbefore1 (c : Dev nD) (t : Fin cfg0.N) (d) : (mdat V c).before 1 t d = mblk V c 1 t :=
  mbefore1_of V (mdat V c) (mA_eq V c 1) (mafter1 V c) t d

/-- What the body is called with at point `t`, -/
def mPre (c : Dev nD) (t : Fin cfg0.N) : sProp 𝕄 :=
  iprop((mdat V c).Φ t.castSucc ∗ (mdat V c).owesAt () t.castSucc
    ∗ (∃ d, owns (c : Thread nD τ) (st0_0 t) fullShare ((mdat V c).before 0 t d))
    ∗ (∃ d, owns (c : Thread nD τ) (st0_1 t) fullShare ((mdat V c).before 1 t d))
    ∗ (∃ d, owns (c : Thread nD τ) (st0_2 t) fullShare ((mdat V c).before 2 t d)))

/-- and what it returns. -/
def mPost (c : Dev nD) (t : Fin cfg0.N) : sProp 𝕄 :=
  iprop((mdat V c).Φ t.succ ∗ (mdat V c).owesAt () t.succ
    ∗ owns (c : Thread nD τ) (st0_0 t) fullShare ((mdat V c).after 0 t)
    ∗ owns (c : Thread nD τ) (st0_1 t) fullShare ((mdat V c).after 1 t)
    ∗ owns (c : Thread nD τ) (st0_2 t) fullShare ((mdat V c).after 2 t))

theorem mask_point (c : Dev nD) (t : Fin cfg0.N) :
    mPre V c t ⊢ wp frame (wpE (defs₀ (F := F)) Variants.none c none) Set.univ (bodyAt0 t) (fun _ => mPost V c t) := by
  unfold mPre mPost bodyAt0
  simp only [mbefore0, mbefore1]
  rw [show (mdat V c).Φ t.succ = (mdat V c).Φ t.castSucc from rfl,
    show (mdat V c).owesAt () t.succ = (mdat V c).owesAt () t.castSucc from rfl,
    mafter0, mafter1, mafter2]
  iintro ⟨HΦ, Ho, ⟨%d0, H0⟩, ⟨%d1, H1⟩, ⟨%d2, H2⟩⟩
  iapply (mask_body c Set.univ _ _ _ _ _ _ _ (mblk V c 0 t) (mblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the mask pass, at every point. -/
theorem mask_obligation (c : Dev nD) : BodyObligation (mdat (F := F) V c) (defs₀ (F := F)) Variants.none () Set.univ := fun t => by
  rw [bigSep_W0, bigSep_W0]
  exact mask_point V c t

end

end Cert.Kernel.Fr

end
-- ==== Proof.FrameK.Run.lean ====
/-
  The whole run of @main: the mask pass, the reshape of the bias to one row, the accumulating product. The core's
  buffer contents at each boundary are a fold from the launch memory: a region leaves each of its arrays at what its
  write-backs fold to and every other buffer as entered; the host line writes only its own result. Every weakly fair
  execution terminates with the result array at what the second region's write-backs leave and every argument as launched.
-/
import proofs.«156875_j52209622450452_2_alg».proof.Proof.FrameK.AccBody
import proofs.«156875_j52209622450452_2_alg».proof.Proof.FrameK.Mask

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the mask pass's entry). -/
abbrev W0 : Dev nD → Valuation τ sig (Elt F) := fun c b => (s₀ m ρ).mem ((c : Dev nD), b)
abbrev V0r : (c : Dev nD) → (b : Ref sig .tc) → Buf (Elt F) ((c : Thread nD τ).loc b) := fun c b => W0 m ρ c b
/-- At the mask pass's exit: its arrays at what the pipeline leaves, every other buffer as entered. -/
def W1 (c : Dev nD) : Valuation τ sig (Elt F) :=
  Pipeline.withArrays spec0 c (W0 m ρ c) fun w => (mdat (V0r m ρ) c).arrAt w cfg0.N
theorem W1_arr (c : Dev nD) (w : Fin cfg0.W) :
    W1 m ρ c (Proc.devRef .tc (Pipeline.arrRef spec0 w)) = (mdat (V0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1r : (c : Dev nD) → (b : Ref sig .tc) → Buf (Elt F) ((c : Thread nD τ).loc b) := fun c b => W1 m ρ c b
theorem hF0 (c : Dev nD) (w : Fin cfg0.W) : (mdat (V0r m ρ) c).arrAt w cfg0.N = V1r m ρ c (Pipeline.arrRef spec0 w) :=
  (W1_arr m ρ c w).symm
theorem hrest0 (c : Dev nD) : ∀ b, b ∉ Finset.univ.image (Pipeline.arrRef spec0) → V1r m ρ c b = V0r m ρ c b :=
  fun b hb => W1_of_ne m ρ c b fun w e => hb (Finset.mem_image.mpr ⟨w, Finset.mem_univ _, e⟩)

/-- After the reshape of the bias (the accumulating region's entry). -/
abbrev W2 : Dev nD → Valuation τ sig (Elt F) := fun c => StableHlo.after hostOps1 (W1 m ρ c)
abbrev V2r : (c : Dev nD) → (b : Ref sig .tc) → Buf (Elt F) ((c : Thread nD τ).loc b) := fun c b => W2 m ρ c b
/-- At the accumulating region's exit. -/
def W3 (c : Dev nD) : Valuation τ sig (Elt F) :=
  Pipeline.withArrays spec1 c (W2 m ρ c) fun w => (adat (V2r m ρ) c).arrAt w cfg1.N
theorem W3_arr (c : Dev nD) (w : Fin cfg1.W) :
    W3 m ρ c (Proc.devRef .tc (Pipeline.arrRef spec1 w)) = (adat (V2r m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3r : (c : Dev nD) → (b : Ref sig .tc) → Buf (Elt F) ((c : Thread nD τ).loc b) := fun c b => W3 m ρ c b
theorem hF1 (c : Dev nD) (w : Fin cfg1.W) : (adat (V2r m ρ) c).arrAt w cfg1.N = V3r m ρ c (Pipeline.arrRef spec1 w) :=
  (W3_arr m ρ c w).symm
theorem hrest1 (c : Dev nD) : ∀ b, b ∉ Finset.univ.image (Pipeline.arrRef spec1) → V3r m ρ c b = V2r m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((adat (V2r m ρ) c).arrAt_in 0 rfl _).trans (aA_eq (V2r m ρ) c 0))
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 0).trans (((mdat (V0r m ρ) c).arrAt_in 0 rfl _).trans (mA_eq (V0r m ρ) c 0))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := (W1_arr m ρ c 1).trans (((mdat (V0r m ρ) c).arrAt_in 1 rfl _).trans (mA_eq (V0r m ρ) c 1))
    _ = m ((c : Thread nD τ).loc main_arg3) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => mdat (V0r m ρ) c
  | ⟨1, _⟩ => fun c => adat (V2r m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-- The host line as a segment. -/
abbrev hseg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ) R

/-! ## The regions as segments -/

set_option backward.isDefEq.respectTransparency.types false in
/-- The mask pass over the thread state: entered from the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (mask_obligation (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0r m ρ c) (V1r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The accumulating region over the thread state: entered from `W2`, left at `W3`. The scratch enters the
    invariant with the rest of the scoped buffers and leaves it the same way. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (acc_obligation (V2r m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (acc_in (V2r m ρ) c)
    unfold Pipeline.ΦA
    iintro ⟨Hp, -, Hr⟩
    isplitl [Hr]; · iexact Hr
    iexact Hp
  hout c := by
    rw [Pipeline.ownSems0_none]
    refine BIBase.Entails.trans (acc_out (V2r m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2r m ρ c) (V3r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state has every unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run read at the result array and the arguments: the result holds what the accumulating region's write-backs
    fold to, each argument its launch contents. -/
theorem run_result : θ_run defs (onTc (τ := τ) (main (F := F))) ⟨m, fun _ => 0, ρ⟩ (fun r => ∀ c : Dev nD,
      r.2.mem ((c.tc : Thread nD τ).loc main_v2) = (adat (V2r m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
    ⟨(h c _ (mem_uc main_v2 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.Kernel.Fr

end
-- ==== Proof.FrameKI.AccDefs.lean ====
/-
  The second kernel region: the product accumulated over sixteen column blocks in a scratch buffer. What its three
  control cases share: the two conditions of the body in closed form over the grid (the first column block, where the
  scratch is reset; the last, where the bias row is added and the output block stored), where the output window is
  idle, the staging and scratch buffers by name, and the region invariant with the scratch named.
-/
import proofs.«156875_j52209622450452_2_alg».proof.Proof.Gen.KernelIdeal.Launch
import proofs.«156875_j52209622450452_2_alg».proof.Proof.Gen.KernelIdeal.Skeleton
import proofs.«156875_j52209622450452_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first condition: the point is at column block 0 (the scratch is reset there). -/
abbrev condFirst (i : grid1.Coords) : Prop := (Scalar.cmpi .ne (Scalar.extui (Scalar.cmpi .eq (BitVec.ofNat 32 (i 2).val) 0#32)) 0#32) = 1#1
/-- It holds at the points ≡ 0 (mod 16). -/
theorem hcondFirst : ∀ t : Fin cfg1.N, condFirst (grid1.coords t) ↔ t.val % 16 = 0 :=
  (by decide +kernel : ∀ t : Fin grid1.N, condFirst (grid1.coords t) ↔ t.val % 16 = 0)

/-- The body's second condition: the point is at the last column block (the output block is stored there). -/
abbrev condLast (i : grid1.Coords) : Prop := k1_cond2 i = 1#1
/-- It holds at the points ≡ 15 (mod 16). -/
theorem hcondLast : ∀ t : Fin cfg1.N, condLast (grid1.coords t) ↔ t.val % 16 = 15 :=
  (by decide +kernel : ∀ t : Fin grid1.N, condLast (grid1.coords t) ↔ t.val % 16 = 15)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last column block the output window is idle and not written back. -/
theorem idle1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
/-- At the last column block it is live. -/
theorem live1_3 : ∀ t : Fin cfg1.N, condLast (grid1.coords t) → cfg1.idle 3 (grid1.coords t) = false := by decide +kernel

/-- One staging buffer of the output window, through which its contents are stated. -/
abbrev VO : View sig .tc .vmem S2048x1024 .f32 := (Memref.whole cc1_stg3_0 : Memref sig .tc .vmem S2048x1024 .f32).view
/-- Each window's current staging buffer at point `t`, as the pipeline passes it, and its wholeness. -/
abbrev ms0 (t : Fin cfg1.N) : Memref sig .tc .vmem S2048x256 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x256 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S2048x1024 .f32 := win1_3.stage (cfg1.slots t 3)
abbrev hs3 (t : Fin cfg1.N) : (ms3 t).IsWhole := hstage1_3 ((cfg1.slots t 3).cast nbuf1_3)
/-- The scratch accumulator: a whole scoped buffer of the kernel's own. -/
abbrev scM : Memref sig .tc .vmem S2048x1024 .f32 := Memref.whole cc1_scratch0
abbrev VS : View sig .tc .vmem S2048x1024 .f32 := scM.view

/-- The other region's staging buffers, which this region never touches, each at some contents. -/
def idleBufs (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region's scoped rest: the other region's staging buffers and the scratch, each at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM fullShare d)) ∗ (∃ r, prngReg c r)) := by
  unfold Pipeline.ΦA; rw [scopedRest1_eq]; simp only [scM, owns_whole]; try rfl

/-- The scoped rest with the scratch set apart. -/
theorem PhiA1_split (c : Dev nD) :
    (Pipeline.ΦA spec1 c : sProp 𝕄) ⊢ iprop(iprop(idleBufs (F := F) c ∗ (∃ d, owns (c : Thread nD τ) scM fullShare d)) ∗ (∃ r, prngReg c r)) := by
  rw [PhiA1_eq]; unfold idleBufs
  iintro ⟨⟨A1, A2, A3, A4, A5, A6, HS⟩, Hg⟩
  isplitr [Hg]
  · isplitr [HS]
    · isplitl [A1]; · iexact A1
      isplitl [A2]; · iexact A2
      isplitl [A3]; · iexact A3
      isplitl [A4]; · iexact A4
      isplitl [A5]; · iexact A5
      iexact A6
    iexact HS
  iexact Hg

/-- And put back. -/
theorem PhiA1_join (c : Dev nD) :
    iprop(iprop(idleBufs (F := F) c ∗ (∃ d, owns (c : Thread nD τ) scM fullShare d)) ∗ (∃ r, prngReg c r)) ⊢ (Pipeline.ΦA spec1 c : sProp 𝕄) := by
  rw [PhiA1_eq]; unfold idleBufs
  iintro ⟨⟨⟨A1, A2, A3, A4, A5, A6⟩, HS⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    iexact HS
  iexact Hg

end Cert.KernelIdeal.Fr

end
-- ==== Proof.FrameKI.RunFirst.lean ====
/-
  The accumulating body at the first column block: the scratch is reset to the zero word and the block's product
  added to it; the output window is left untouched.
-/
import proofs.«156875_j52209622450452_2_alg».proof.Proof.FrameKI.AccDefs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The pieces the body's stores leave in the scratch at a point of the first column block, with the proof that on
    whole staging buffers — the inputs' at their contents, the idle output's at contents handed back untouched, the
    scratch at anything — the body runs to the continuation holding the scratch with those pieces written. -/
noncomputable def runFirst (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : condFirst i) (hcL : ¬condLast i)
    (x0 : Vec F S2048x256 .f32) (x1 : Vec F S1024x256 .bf16) (x2 : Vec F S1x1024 .f32) :
    Σ' (L3 : List (View.Piece (Elt F) S2048x1024 .f32)), { LS : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Fr

end
-- ==== Proof.FrameKI.RunMid.lean ====
/-
  The accumulating body at a column block that is neither the first nor the last: the block's product is added to what
  the point before left in the scratch; the output window is left untouched.
-/
import proofs.«156875_j52209622450452_2_alg».proof.Proof.FrameKI.RunFirst

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The pieces the body's stores leave in the scratch at such a point, with the proof that the body runs from the
    scratch at `xs` to the scratch with those pieces written. -/
noncomputable def runMid (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : ¬condLast i)
    (x0 : Vec F S2048x256 .f32) (x1 : Vec F S1024x256 .bf16) (x2 : Vec F S1x1024 .f32) (xs : Vec F S2048x1024 .f32) :
    Σ' (L3 : List (View.Piece (Elt F) S2048x1024 .f32)), { LS : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Fr

end
-- ==== Proof.FrameKI.RunLast.lean ====
/-
  The accumulating body at the last column block: the block's product is added to what the point before left in the
  scratch, and the scratch plus the bias row is stored into the output window's buffer.
-/
import proofs.«156875_j52209622450452_2_alg».proof.Proof.FrameKI.RunMid

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The pieces the body's stores leave in the output buffer and in the scratch at a point of the last column block,
    with the proof that the body runs from the scratch at `xs` and the output's buffer at anything to both with
    those pieces written. -/
noncomputable def runLast (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : condLast i)
    (x0 : Vec F S2048x256 .f32) (x1 : Vec F S1024x256 .bf16) (x2 : Vec F S1x1024 .f32) (xs : Vec F S2048x1024 .f32) :
    Σ' (L3 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Fr

end
-- ==== Proof.FrameKI.Acc.lean ====
/-
  The second kernel region as proof data. What the scratch holds after each point is stated by recursion on the
  point: at a first column block the reset scratch plus that block's product, otherwise what the point before left
  plus this block's product; at a last column block the output window's buffer takes the scratch plus the bias row.
  The region invariant names the scratch's contents between points, so that each point finds what the one before left.
-/
import proofs.«156875_j52209622450452_2_alg».proof.Proof.FrameKI.RunLast

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem abefore0_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)
theorem abefore1_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)
theorem abefore2_of {c : Dev nD} (dat : Dat τ (Elt F) Unit ℕ (UR sig nD τ) ℕ cfg1 c) (hA : dat.A 2 = V c (Pipeline.arrRef spec1 2))
    (hafter : ∀ t, dat.after 2 t = ablk V c 2 t) (t : Fin cfg1.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)

end

/-! ## What each case leaves -/

/-- The first-block case's scratch pieces cover the scratch. -/
theorem scoverFirst (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : condFirst i) (hcL : ¬condLast i)
    (x0 : Vec F S2048x256 .f32) (x1 : Vec F S1024x256 .bf16) (x2 : Vec F S1x1024 .f32) (y : S2048x1024.Idx) :
    ∃ pc ∈ (runFirst c i arg3 harg3 arg4 harg4 arg5 harg5 arg6 harg6 arg7 harg7 hcF hcL x0 x1 x2).2.1, y ∈ pc.1.set :=
  View.cover_of_tiledL (runFirst c i arg3 harg3 arg4 harg4 arg5 harg5 arg6 harg6 arg7 harg7 hcF hcL x0 x1 x2).2.1 S2048x1024.size (by sl_kernel_rfl) y
/-- What it leaves in the scratch. -/
def soutFirst (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : condFirst i) (hcL : ¬condLast i)
    (x0 : Vec F S2048x256 .f32) (x1 : Vec F S1024x256 .bf16) (x2 : Vec F S1x1024 .f32) : Vec F S2048x1024 .f32 :=
  VS.read (Elt F) (VS.writes (Elt F) VS.junk (runFirst c i arg3 harg3 arg4 harg4 arg5 harg5 arg6 harg6 arg7 harg7 hcF hcL x0 x1 x2).2.1)
/-- It stores nothing into the output window: a placeholder nothing consults. -/
def outFirst (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : condFirst i) (hcL : ¬condLast i)
    (x0 : Vec F S2048x256 .f32) (x1 : Vec F S1024x256 .bf16) (x2 : Vec F S1x1024 .f32) : Vec F S2048x1024 .f32 :=
  VO.read (Elt F) (VO.writes (Elt F) VO.junk (runFirst c i arg3 harg3 arg4 harg4 arg5 harg5 arg6 harg6 arg7 harg7 hcF hcL x0 x1 x2).1)

theorem scoverMid (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : ¬condLast i)
    (x0 : Vec F S2048x256 .f32) (x1 : Vec F S1024x256 .bf16) (x2 : Vec F S1x1024 .f32) (xs : Vec F S2048x1024 .f32) (y : S2048x1024.Idx) :
    ∃ pc ∈ (runMid c i arg3 harg3 arg4 harg4 arg5 harg5 arg6 harg6 arg7 harg7 hcF hcL x0 x1 x2 xs).2.1, y ∈ pc.1.set :=
  View.cover_of_tiledL (runMid c i arg3 harg3 arg4 harg4 arg5 harg5 arg6 harg6 arg7 harg7 hcF hcL x0 x1 x2 xs).2.1 S2048x1024.size (by sl_kernel_rfl) y
def soutMid (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : ¬condLast i)
    (x0 : Vec F S2048x256 .f32) (x1 : Vec F S1024x256 .bf16) (x2 : Vec F S1x1024 .f32) (xs : Vec F S2048x1024 .f32) : Vec F S2048x1024 .f32 :=
  VS.read (Elt F) (VS.writes (Elt F) VS.junk (runMid c i arg3 harg3 arg4 harg4 arg5 harg5 arg6 harg6 arg7 harg7 hcF hcL x0 x1 x2 xs).2.1)
def outMid (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : ¬condLast i)
    (x0 : Vec F S2048x256 .f32) (x1 : Vec F S1024x256 .bf16) (x2 : Vec F S1x1024 .f32) (xs : Vec F S2048x1024 .f32) : Vec F S2048x1024 .f32 :=
  VO.read (Elt F) (VO.writes (Elt F) VO.junk (runMid c i arg3 harg3 arg4 harg4 arg5 harg5 arg6 harg6 arg7 harg7 hcF hcL x0 x1 x2 xs).1)

theorem scoverLast (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : condLast i)
    (x0 : Vec F S2048x256 .f32) (x1 : Vec F S1024x256 .bf16) (x2 : Vec F S1x1024 .f32) (xs : Vec F S2048x1024 .f32) (y : S2048x1024.Idx) :
    ∃ pc ∈ (runLast c i arg3 harg3 arg4 harg4 arg5 harg5 arg6 harg6 arg7 harg7 hcF hcL x0 x1 x2 xs).2.1, y ∈ pc.1.set :=
  View.cover_of_tiledL (runLast c i arg3 harg3 arg4 harg4 arg5 harg5 arg6 harg6 arg7 harg7 hcF hcL x0 x1 x2 xs).2.1 S2048x1024.size (by sl_kernel_rfl) y
def soutLast (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : condLast i)
    (x0 : Vec F S2048x256 .f32) (x1 : Vec F S1024x256 .bf16) (x2 : Vec F S1x1024 .f32) (xs : Vec F S2048x1024 .f32) : Vec F S2048x1024 .f32 :=
  VS.read (Elt F) (VS.writes (Elt F) VS.junk (runLast c i arg3 harg3 arg4 harg4 arg5 harg5 arg6 harg6 arg7 harg7 hcF hcL x0 x1 x2 xs).2.1)
/-- The last-block case's output pieces cover the output window's buffer. -/
theorem coverLast (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : condLast i)
    (x0 : Vec F S2048x256 .f32) (x1 : Vec F S1024x256 .bf16) (x2 : Vec F S1x1024 .f32) (xs : Vec F S2048x1024 .f32) (y : S2048x1024.Idx) :
    ∃ pc ∈ (runLast c i arg3 harg3 arg4 harg4 arg5 harg5 arg6 harg6 arg7 harg7 hcF hcL x0 x1 x2 xs).1, y ∈ pc.1.set :=
  View.cover_of_tiledL (runLast c i arg3 harg3 arg4 harg4 arg5 harg5 arg6 harg6 arg7 harg7 hcF hcL x0 x1 x2 xs).1 S2048x1024.size (by sl_kernel_rfl) y
def outLast (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : condLast i)
    (x0 : Vec F S2048x256 .f32) (x1 : Vec F S1024x256 .bf16) (x2 : Vec F S1x1024 .f32) (xs : Vec F S2048x1024 .f32) : Vec F S2048x1024 .f32 :=
  VO.read (Elt F) (VO.writes (Elt F) VO.junk (runLast c i arg3 harg3 arg4 harg4 arg5 harg5 arg6 harg6 arg7 harg7 hcF hcL x0 x1 x2 xs).1)

section
variable (V : (c : Dev nD) → (b : Ref sig .tc) → Buf (Elt F) ((c : Thread nD τ).loc b))

/-! ## Point by point -/

/-- What the output window's buffer and the scratch hold after the body at position `n` (a pair: the output
    window's, then the scratch's): the case the closed forms select at `n`, run at the point's buffers and input blocks,
    over what the point before left in the scratch. -/
def accAt (c : Dev nD) : (n : ℕ) → n < cfg1.N → Vec F S2048x1024 .f32 × Vec F S2048x1024 .f32
  | 0, hn => (outFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondFirst ⟨0, hn⟩).mpr (Nat.zero_mod _)) (fun h => (fun h => by (try dsimp only at h); omega) ((hcondLast ⟨0, hn⟩).mp h)) (ablk V c 0 ⟨0, hn⟩) (ablk V c 1 ⟨0, hn⟩) (ablk V c 2 ⟨0, hn⟩), soutFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondFirst ⟨0, hn⟩).mpr (Nat.zero_mod _)) (fun h => (fun h => by (try dsimp only at h); omega) ((hcondLast ⟨0, hn⟩).mp h)) (ablk V c 0 ⟨0, hn⟩) (ablk V c 1 ⟨0, hn⟩) (ablk V c 2 ⟨0, hn⟩))
  | n + 1, hn =>
    if h0 : (n + 1) % 16 = 0 then
      if h1 : (n + 1) % 16 = 15 then
        False.elim (by omega)
      else
        (outFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondFirst ⟨n + 1, hn⟩).mpr h0) (fun h => h1 ((hcondLast ⟨n + 1, hn⟩).mp h)) (ablk V c 0 ⟨n + 1, hn⟩) (ablk V c 1 ⟨n + 1, hn⟩) (ablk V c 2 ⟨n + 1, hn⟩), soutFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondFirst ⟨n + 1, hn⟩).mpr h0) (fun h => h1 ((hcondLast ⟨n + 1, hn⟩).mp h)) (ablk V c 0 ⟨n + 1, hn⟩) (ablk V c 1 ⟨n + 1, hn⟩) (ablk V c 2 ⟨n + 1, hn⟩))
    else
      if h1 : (n + 1) % 16 = 15 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) ((hcondLast ⟨n + 1, hn⟩).mpr h1) (ablk V c 0 ⟨n + 1, hn⟩) (ablk V c 1 ⟨n + 1, hn⟩) (ablk V c 2 ⟨n + 1, hn⟩) (accAt c n (Nat.lt_of_succ_lt hn)).2, soutLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) ((hcondLast ⟨n + 1, hn⟩).mpr h1) (ablk V c 0 ⟨n + 1, hn⟩) (ablk V c 1 ⟨n + 1, hn⟩) (ablk V c 2 ⟨n + 1, hn⟩) (accAt c n (Nat.lt_of_succ_lt hn)).2)
      else
        (outMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) (fun h => h1 ((hcondLast ⟨n + 1, hn⟩).mp h)) (ablk V c 0 ⟨n + 1, hn⟩) (ablk V c 1 ⟨n + 1, hn⟩) (ablk V c 2 ⟨n + 1, hn⟩) (accAt c n (Nat.lt_of_succ_lt hn)).2, soutMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) (fun h => h1 ((hcondLast ⟨n + 1, hn⟩).mp h)) (ablk V c 0 ⟨n + 1, hn⟩) (ablk V c 1 ⟨n + 1, hn⟩) (ablk V c 2 ⟨n + 1, hn⟩) (accAt c n (Nat.lt_of_succ_lt hn)).2)

/-- `accAt` at a point of a first column block. -/
theorem accAt_first (c : Dev nD) (t : Fin cfg1.N) (h0 : t.val % 16 = 0) (h1 : ¬t.val % 16 = 15) :
    accAt V c t.val t.isLt = (outFirst c (grid1.coords t) (ms0 t) (hs0 t) (ms1 t) (hs1 t) (ms2 t) (hs2 t) (ms3 t) (hs3 t) scM (Memref.isWhole_whole _) ((hcondFirst t).mpr h0) (fun h => h1 ((hcondLast t).mp h)) (ablk V c 0 t) (ablk V c 1 t) (ablk V c 2 t), soutFirst c (grid1.coords t) (ms0 t) (hs0 t) (ms1 t) (hs1 t) (ms2 t) (hs2 t) (ms3 t) (hs3 t) scM (Memref.isWhole_whole _) ((hcondFirst t).mpr h0) (fun h => h1 ((hcondLast t).mp h)) (ablk V c 0 t) (ablk V c 1 t) (ablk V c 2 t)) := by
  obtain ⟨n, hn⟩ := t
  cases n with
  | zero => exact rfl
  | succ n => exact (dif_pos h0).trans ((dif_neg h1).trans rfl)

/-- `accAt` at a point that is neither first nor last: over what the point before left. -/
theorem accAt_mid (c : Dev nD) (t : Fin cfg1.N) (h0 : ¬t.val % 16 = 0) (h1 : ¬t.val % 16 = 15) :
    accAt V c t.val t.isLt = (outMid c (grid1.coords t) (ms0 t) (hs0 t) (ms1 t) (hs1 t) (ms2 t) (hs2 t) (ms3 t) (hs3 t) scM (Memref.isWhole_whole _) (fun h => h0 ((hcondFirst t).mp h)) (fun h => h1 ((hcondLast t).mp h)) (ablk V c 0 t) (ablk V c 1 t) (ablk V c 2 t) (accAt V c (t.val - 1) (Nat.lt_of_le_of_lt (Nat.sub_le _ _) t.isLt)).2, soutMid c (grid1.coords t) (ms0 t) (hs0 t) (ms1 t) (hs1 t) (ms2 t) (hs2 t) (ms3 t) (hs3 t) scM (Memref.isWhole_whole _) (fun h => h0 ((hcondFirst t).mp h)) (fun h => h1 ((hcondLast t).mp h)) (ablk V c 0 t) (ablk V c 1 t) (ablk V c 2 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `accAt` at a point of a last column block: over what the point before left. -/
theorem accAt_last (c : Dev nD) (t : Fin cfg1.N) (h0 : ¬t.val % 16 = 0) (h1 : t.val % 16 = 15) :
    accAt V c t.val t.isLt = (outLast c (grid1.coords t) (ms0 t) (hs0 t) (ms1 t) (hs1 t) (ms2 t) (hs2 t) (ms3 t) (hs3 t) scM (Memref.isWhole_whole _) (fun h => h0 ((hcondFirst t).mp h)) ((hcondLast t).mpr h1) (ablk V c 0 t) (ablk V c 1 t) (ablk V c 2 t) (accAt V c (t.val - 1) (Nat.lt_of_le_of_lt (Nat.sub_le _ _) t.isLt)).2, soutLast c (grid1.coords t) (ms0 t) (hs0 t) (ms1 t) (hs1 t) (ms2 t) (hs2 t) (ms3 t) (hs3 t) scM (Memref.isWhole_whole _) (fun h => h0 ((hcondFirst t).mp h)) ((hcondLast t).mpr h1) (ablk V c 0 t) (ablk V c 1 t) (ablk V c 2 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer at anything; afterwards the
    other region's buffers at anything, the scratch at what the point before left, the generator register at some state. -/
def PhiS (c : Dev nD) : (n : ℕ) → n ≤ cfg1.N → sProp 𝕄
  | 0, _ => Pipeline.ΦA spec1 c
  | n + 1, hn => iprop(iprop(idleBufs (F := F) c ∗ owns (c : Thread nD τ) scM fullShare ((accAt V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(idleBufs (F := F) c ∗ owns (c : Thread nD τ) scM fullShare ((accAt V c n hn).2)) ∗ (∃ r, prngReg c r)) := rfl

theorem PhiS_pos (c : Dev nD) (n : ℕ) (h : n ≤ cfg1.N) (hz : n ≠ 0) :
    PhiS V c n h = iprop(iprop(idleBufs (F := F) c ∗ owns (c : Thread nD τ) scM fullShare ((accAt V c (n - 1) (by omega)).2)) ∗ (∃ r, prngReg c r)) := by
  cases n with
  | zero => exact absurd rfl hz
  | succ n => rfl

/-! ## The proof data -/

/-- The proof data of the accumulating region on core `c`: the arrays as the region finds them; after the body at
    point `t` each input's buffer at its block and the output's at `accAt`'s first component; the invariant `PhiS`;
    nothing owed. -/
def adat (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => ablk V c 2 t
    | ⟨3, _⟩ => (accAt V c t.val t.isLt).1
  Φ t := PhiS V c t.val (Nat.le_of_lt_succ t.isLt)
  q _ := fullShare
  owed _ := 0

theorem aA_eq (c : Dev nD) (w : Fin cfg1.W) : (adat V c).A w = V c (Pipeline.arrRef spec1 w) := by
  dsimp only [adat]

theorem PhiS_castSucc (c : Dev nD) (t : Fin cfg1.N) :
    (adat V c).Φ t.castSucc = PhiS V c t.val (Nat.le_of_lt t.isLt) := by
  dsimp only [adat]; simp only [Fin.coe_castSucc]

theorem aafter0 (c : Dev nD) (t : Fin cfg1.N) : (adat V c).after 0 t = ablk V c 0 t := by dsimp only [adat]
theorem aafter1 (c : Dev nD) (t : Fin cfg1.N) : (adat V c).after 1 t = ablk V c 1 t := by dsimp only [adat]
theorem aafter2 (c : Dev nD) (t : Fin cfg1.N) : (adat V c).after 2 t = ablk V c 2 t := by dsimp only [adat]
theorem aafter3 (c : Dev nD) (t : Fin cfg1.N) : (adat V c).after 3 t = (accAt V c t.val t.isLt).1 := by dsimp only [adat]

theorem abefore0 (c : Dev nD) (t : Fin cfg1.N) (d) : (adat V c).before 0 t d = ablk V c 0 t :=
  abefore0_of V (adat V c) (aA_eq V c 0) (aafter0 V c) t d
theorem abefore1 (c : Dev nD) (t : Fin cfg1.N) (d) : (adat V c).before 1 t d = ablk V c 1 t :=
  abefore1_of V (adat V c) (aA_eq V c 1) (aafter1 V c) t d
theorem abefore2 (c : Dev nD) (t : Fin cfg1.N) (d) : (adat V c).before 2 t d = ablk V c 2 t :=
  abefore2_of V (adat V c) (aA_eq V c 2) (aafter2 V c) t d

end

end Cert.KernelIdeal.Fr

end
-- ==== Proof.FrameKI.AccBody.lean ====
/-
  The accumulating region's body obligation: at every point the closed forms of the two conditions say which case the
  point is in, the invariant hands the body the scratch at what the point before left, and takes it back at this
  point's contents.
-/
import proofs.«156875_j52209622450452_2_alg».proof.Proof.FrameKI.Acc

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, -/
def aPre (c : Dev nD) (t : Fin cfg1.N) : sProp 𝕄 :=
  iprop((adat V c).Φ t.castSucc ∗ (adat V c).owesAt () t.castSucc
    ∗ (∃ d, owns (c : Thread nD τ) (ms0 t) fullShare ((adat V c).before 0 t d))
    ∗ (∃ d, owns (c : Thread nD τ) (ms1 t) fullShare ((adat V c).before 1 t d))
    ∗ (∃ d, owns (c : Thread nD τ) (ms2 t) fullShare ((adat V c).before 2 t d))
    ∗ (∃ d, owns (c : Thread nD τ) (ms3 t) fullShare ((adat V c).before 3 t d)))

/-- and what it returns. -/
def aPost (c : Dev nD) (t : Fin cfg1.N) : sProp 𝕄 :=
  iprop((adat V c).Φ t.succ ∗ (adat V c).owesAt () t.succ
    ∗ (adat V c).leavesExact 0 t
    ∗ (adat V c).leavesExact 1 t
    ∗ (adat V c).leavesExact 2 t
    ∗ (adat V c).leavesExact 3 t)

set_option maxHeartbeats 4800000 in
theorem acc_point (c : Dev nD) (t : Fin cfg1.N) :
    aPre V c t ⊢ wp frame (wpE (defs₀ (F := F)) Variants.none c none) Set.univ (bodyAt1 t) (fun _ => aPost V c t) := by
  unfold aPre aPost bodyAt1
  simp only [abefore0, abefore1, abefore2]
  rw [show (adat V c).owesAt () t.succ = (adat V c).owesAt () t.castSucc from rfl]
  rw [show (adat V c).Φ t.succ = PhiS V c (t.val + 1) t.isLt from rfl, PhiS_succ]
  have hN : t.val < 512 := lt_of_lt_of_eq t.isLt (show cfg1.N = 512 from N_1)
  by_cases h0 : t.val % 16 = 0
  · by_cases h1 : t.val % 16 = 15
    · exfalso; omega
    · have hF : condFirst (grid1.coords t) := (hcondFirst t).mpr h0
      have hL : ¬condLast (grid1.coords t) := fun h => h1 ((hcondLast t).mp h)
      rw [show (adat V c).leavesExact 0 t = owns (c : Thread nD τ) (ms0 t) fullShare ((adat V c).after 0 t) from by
        unfold Dat.leavesExact; rw [live1_0 t], aafter0]
      rw [show (adat V c).leavesExact 1 t = owns (c : Thread nD τ) (ms1 t) fullShare ((adat V c).after 1 t) from by
        unfold Dat.leavesExact; rw [live1_1 t], aafter1]
      rw [show (adat V c).leavesExact 2 t = owns (c : Thread nD τ) (ms2 t) fullShare ((adat V c).after 2 t) from by
        unfold Dat.leavesExact; rw [live1_2 t], aafter2]
      rw [Dat.leavesExact_idle (adat V c) 3 t (idle1_3 t hL) (noFlush1_3 t hL)]
      rw [accAt_first V c t h0 h1]
      unfold soutFirst; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩⟩
        ihave HΦ' := PhiA1_split (F := F) c $$ HΦ
        icases HΦ' with ⟨⟨HI, HS⟩, Hg⟩
        iapply ((runFirst c (grid1.coords t) _ _ _ _ _ _ _ _ _ _ hF hL (ablk V c 0 t) (ablk V c 1 t) (ablk V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HI Hg]
        · isplitl [HS HI]
          · isplitl [HI]; · iexact HI
            unfold owns; iexists _; isplitr
            swap; · iexact HS
            ipureintro; exact View.read_writes_of_cover _ _ _ _ _ (scoverFirst c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HI, HS⟩, Hg⟩, Ho, ⟨%d0, H0⟩, ⟨%d1, H1⟩, ⟨%d2, H2⟩, ⟨%d3, H3⟩⟩
        iapply ((runFirst c (grid1.coords t) _ _ _ _ _ _ _ _ _ _ hF hL (ablk V c 0 t) (ablk V c 1 t) (ablk V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS HI Hg]
        · isplitl [HS HI]
          · isplitl [HI]; · iexact HI
            unfold owns; iexists _; isplitr
            swap; · iexact HS
            ipureintro; exact View.read_writes_of_cover _ _ _ _ _ (scoverFirst c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hF : ¬condFirst (grid1.coords t) := fun h => h0 ((hcondFirst t).mp h)
    have hz : t.val ≠ 0 := fun h => h0 (by rw [h])
    by_cases h1 : t.val % 16 = 15
    · have hL : condLast (grid1.coords t) := (hcondLast t).mpr h1
      rw [show (adat V c).leavesExact 0 t = owns (c : Thread nD τ) (ms0 t) fullShare ((adat V c).after 0 t) from by
        unfold Dat.leavesExact; rw [live1_0 t], aafter0]
      rw [show (adat V c).leavesExact 1 t = owns (c : Thread nD τ) (ms1 t) fullShare ((adat V c).after 1 t) from by
        unfold Dat.leavesExact; rw [live1_1 t], aafter1]
      rw [show (adat V c).leavesExact 2 t = owns (c : Thread nD τ) (ms2 t) fullShare ((adat V c).after 2 t) from by
        unfold Dat.leavesExact; rw [live1_2 t], aafter2]
      rw [show (adat V c).leavesExact 3 t = owns (c : Thread nD τ) (ms3 t) fullShare ((adat V c).after 3 t) from by
        unfold Dat.leavesExact; rw [live1_3 t hL], aafter3]
      rw [accAt_last V c t h0 h1]
      unfold outLast soutLast; (try dsimp only)
      · rw [PhiS_castSucc V c t, PhiS_pos V c _ _ hz]
        iintro ⟨⟨⟨HI, HS⟩, Hg⟩, Ho, ⟨%d0, H0⟩, ⟨%d1, H1⟩, ⟨%d2, H2⟩, ⟨%d3, H3⟩⟩
        iapply ((runLast c (grid1.coords t) _ _ _ _ _ _ _ _ _ _ hF hL (ablk V c 0 t) (ablk V c 1 t) (ablk V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS HI Hg]
        · isplitl [HS HI]
          · isplitl [HI]; · iexact HI
            unfold owns; iexists _; isplitr
            swap; · iexact HS
            ipureintro; exact View.read_writes_of_cover _ _ _ _ _ (scoverLast c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverLast c _ _ _ _ _ _ _ _ _ _ _ _ _ _ _ _ _)
    · have hL : ¬condLast (grid1.coords t) := fun h => h1 ((hcondLast t).mp h)
      rw [show (adat V c).leavesExact 0 t = owns (c : Thread nD τ) (ms0 t) fullShare ((adat V c).after 0 t) from by
        unfold Dat.leavesExact; rw [live1_0 t], aafter0]
      rw [show (adat V c).leavesExact 1 t = owns (c : Thread nD τ) (ms1 t) fullShare ((adat V c).after 1 t) from by
        unfold Dat.leavesExact; rw [live1_1 t], aafter1]
      rw [show (adat V c).leavesExact 2 t = owns (c : Thread nD τ) (ms2 t) fullShare ((adat V c).after 2 t) from by
        unfold Dat.leavesExact; rw [live1_2 t], aafter2]
      rw [Dat.leavesExact_idle (adat V c) 3 t (idle1_3 t hL) (noFlush1_3 t hL)]
      rw [accAt_mid V c t h0 h1]
      unfold soutMid; (try dsimp only)
      · rw [PhiS_castSucc V c t, PhiS_pos V c _ _ hz]
        iintro ⟨⟨⟨HI, HS⟩, Hg⟩, Ho, ⟨%d0, H0⟩, ⟨%d1, H1⟩, ⟨%d2, H2⟩, ⟨%d3, H3⟩⟩
        iapply ((runMid c (grid1.coords t) _ _ _ _ _ _ _ _ _ _ hF hL (ablk V c 0 t) (ablk V c 1 t) (ablk V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HI Hg]
        · isplitl [HS HI]
          · isplitl [HI]; · iexact HI
            unfold owns; iexists _; isplitr
            swap; · iexact HS
            ipureintro; exact View.read_writes_of_cover _ _ _ _ _ (scoverMid c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body obligation of the accumulating region, at every point. -/
theorem acc_obligation (c : Dev nD) : BodyObligation (adat (F := F) V c) (defs₀ (F := F)) Variants.none () Set.univ := fun t => by
  rw [bigSep_W1, bigSep_W1]
  exact acc_point V c t

/-- What the launch hands the region is the invariant before the first point. -/
theorem acc_in (c : Dev nD) : Pipeline.ΦA spec1 c ⊢ (adat V c).Φ 0 := by
  rw [show (adat V c).Φ 0 = PhiS V c 0 (Nat.zero_le _) from rfl, PhiS_zero V c 0 _ rfl]
  try exact Idealize.SL.BI.Entails.refl _

/-- After any point but the first the invariant gives the scoped rest back: the scratch's named contents are forgotten. -/
theorem acc_out_at (c : Dev nD) (t : Fin (cfg1.N + 1)) (ht : t.val ≠ 0) : (adat V c).Φ t ⊢ Pipeline.ΦA spec1 c := by
  rw [show (adat V c).Φ t = PhiS V c t.val (Nat.le_of_lt_succ t.isLt) from rfl, PhiS_pos V c _ _ ht]
  iintro ⟨⟨HI, HS⟩, Hg⟩
  iapply (PhiA1_join (F := F) c)
  isplitr [Hg]
  · isplitl [HI]; · iexact HI
    iexists _; iexact HS
  iexact Hg

theorem acc_out (c : Dev nD) : (adat V c).Φ (Fin.last cfg1.N) ⊢ Pipeline.ΦA spec1 c :=
  acc_out_at V c _ (by rw [Fin.val_last]; have : cfg1.N = 512 := N_1; omega)

end

end Cert.KernelIdeal.Fr

end
-- ==== Proof.FrameKI.Mask.lean ====
/-
  The first kernel region: the pass that multiplies the weight by the mask, one block of 256 rows per grid point.
  Stated at the contents `V` the region finds in the core's buffers: each input window's staging buffer holds its
  block of its array at every point, the body stores the product of the two blocks into the output window's buffer,
  and nothing else is touched.
-/
import proofs.«156875_j52209622450452_2_alg».proof.Proof.Gen.KernelIdeal.Launch
import proofs.«156875_j52209622450452_2_alg».proof.Proof.Gen.KernelIdeal.Skeleton
import proofs.«156875_j52209622450452_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def mblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds its block at every point. -/
theorem mbefore0_of {c : Dev nD} (dat : Dat τ (Elt F) Unit ℕ (UR sig nD τ) ℕ cfg0 c) (hA : dat.A 0 = V c (Pipeline.arrRef spec0 0))
    (hafter : ∀ t, dat.after 0 t = mblk V c 0 t) (t : Fin cfg0.N) (d) : dat.before 0 t d = mblk V c 0 t :=
  (dat.before_in_eq_fetched 0 rfl (fun _ => rfl) (fun _ _ _ => rfl) (fun t => by rw [hafter]; unfold Dat.blockOf mblk; rw [hA]; try rfl) t d).trans
    (by unfold Dat.fetched Dat.blockOf mblk; rw [hA]; try rfl)

/-- The mask window's staging buffer holds its block at every point. -/
theorem mbefore1_of {c : Dev nD} (dat : Dat τ (Elt F) Unit ℕ (UR sig nD τ) ℕ cfg0 c) (hA : dat.A 1 = V c (Pipeline.arrRef spec0 1))
    (hafter : ∀ t, dat.after 1 t = mblk V c 1 t) (t : Fin cfg0.N) (d) : dat.before 1 t d = mblk V c 1 t :=
  (dat.before_in_eq_fetched 1 rfl (fun _ => rfl) (fun _ _ _ => rfl) (fun t => by rw [hafter]; unfold Dat.blockOf mblk; rw [hA]; try rfl) t d).trans
    (by unfold Dat.fetched Dat.blockOf mblk; rw [hA]; try rfl)

/-- The whole 256 × 4096 block as a rectangle. -/
abbrev rM : Rect S256x4096 := Rect.unit (s := S256x4096) ![0, 0] S256x4096.size inb_S256x4096_S256x4096_0_0

/-- What the body leaves in the output window's buffer: its one store, the product of the two input blocks. -/
def mout (x0 x1 : Vec F S256x4096 .f32) : Vec F S256x4096 .bf16 :=
  View.canon [⟨rM, k0_pay1 (View.ld x0 rM) (View.ld x1 rM)⟩]

/-- The one store covers the buffer. -/
theorem mcover (p0 : Vec F S256x4096 .bf16) (y : S256x4096.Idx) :
    ∃ pc ∈ ([⟨rM, p0⟩] : List (View.Piece (Elt F) S256x4096 .bf16)), y ∈ pc.1.set :=
  View.cover_of_tiled [⟨rM, p0⟩] S256x4096.size (by rfl) y

set_option maxHeartbeats 1000000 in
/-- The body on whole staging buffers, the inputs' at `x0`, `x1` and the output's at anything, runs and leaves the
    inputs as they were and the output at `mout x0 x1`. -/
theorem mask_body (c : Dev nD) (E : Set ℕ) (i : grid0.Coords) (arg1 : Memref sig .tc .vmem S256x4096 .f32) (harg1 : arg1.IsWhole)
    (arg2 : Memref sig .tc .vmem S256x4096 .f32) (harg2 : arg2.IsWhole) (arg3 : Memref sig .tc .vmem S256x4096 .bf16) (harg3 : arg3.IsWhole)
    (x0 x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (mout x0 x1)) -∗ K ⟨⟩))
      ⊢ wp frame (wpE (defs₀ (F := F)) Variants.none c none) E (cc0__mask_kernel i arg1 harg1 arg2 harg2 arg3 harg3) K := by
  simp only [cc0__mask_kernel_eq_skeleton]; unfold cc0__mask_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (mcover _)

/-- The proof data of the mask pass on core `c`: the arrays as the region finds them; after the body at point `t`
    each input's buffer at its block and the output's at the product of the two blocks; nothing owed. -/
def mdat (c : Dev nD) : Dat τ (Elt F) Unit ℕ (UR sig nD τ) ℕ cfg0 c where
  A w := V c (Pipeline.arrRef spec0 w)
  after w t := match w with
    | ⟨0, _⟩ => mblk V c 0 t
    | ⟨1, _⟩ => mblk V c 1 t
    | ⟨2, _⟩ => mout (mblk V c 0 t) (mblk V c 1 t)
  Φ _ := Pipeline.ΦA spec0 c
  q _ := fullShare
  owed _ := 0

theorem mA_eq (c : Dev nD) (w : Fin cfg0.W) : (mdat V c).A w = V c (Pipeline.arrRef spec0 w) := by
  dsimp only [mdat]

theorem mafter0 (c : Dev nD) (t : Fin cfg0.N) : (mdat V c).after 0 t = mblk V c 0 t := by dsimp only [mdat]
theorem mafter1 (c : Dev nD) (t : Fin cfg0.N) : (mdat V c).after 1 t = mblk V c 1 t := by dsimp only [mdat]
theorem mafter2 (c : Dev nD) (t : Fin cfg0.N) : (mdat V c).after 2 t = mout (mblk V c 0 t) (mblk V c 1 t) := by dsimp only [mdat]

theorem mbefore0 (c : Dev nD) (t : Fin cfg0.N) (d) : (mdat V c).before 0 t d = mblk V c 0 t :=
  mbefore0_of V (mdat V c) (mA_eq V c 0) (mafter0 V c) t d
theorem mbefore1 (c : Dev nD) (t : Fin cfg0.N) (d) : (mdat V c).before 1 t d = mblk V c 1 t :=
  mbefore1_of V (mdat V c) (mA_eq V c 1) (mafter1 V c) t d

/-- What the body is called with at point `t`, -/
def mPre (c : Dev nD) (t : Fin cfg0.N) : sProp 𝕄 :=
  iprop((mdat V c).Φ t.castSucc ∗ (mdat V c).owesAt () t.castSucc
    ∗ (∃ d, owns (c : Thread nD τ) (st0_0 t) fullShare ((mdat V c).before 0 t d))
    ∗ (∃ d, owns (c : Thread nD τ) (st0_1 t) fullShare ((mdat V c).before 1 t d))
    ∗ (∃ d, owns (c : Thread nD τ) (st0_2 t) fullShare ((mdat V c).before 2 t d)))

/-- and what it returns. -/
def mPost (c : Dev nD) (t : Fin cfg0.N) : sProp 𝕄 :=
  iprop((mdat V c).Φ t.succ ∗ (mdat V c).owesAt () t.succ
    ∗ owns (c : Thread nD τ) (st0_0 t) fullShare ((mdat V c).after 0 t)
    ∗ owns (c : Thread nD τ) (st0_1 t) fullShare ((mdat V c).after 1 t)
    ∗ owns (c : Thread nD τ) (st0_2 t) fullShare ((mdat V c).after 2 t))

theorem mask_point (c : Dev nD) (t : Fin cfg0.N) :
    mPre V c t ⊢ wp frame (wpE (defs₀ (F := F)) Variants.none c none) Set.univ (bodyAt0 t) (fun _ => mPost V c t) := by
  unfold mPre mPost bodyAt0
  simp only [mbefore0, mbefore1]
  rw [show (mdat V c).Φ t.succ = (mdat V c).Φ t.castSucc from rfl,
    show (mdat V c).owesAt () t.succ = (mdat V c).owesAt () t.castSucc from rfl,
    mafter0, mafter1, mafter2]
  iintro ⟨HΦ, Ho, ⟨%d0, H0⟩, ⟨%d1, H1⟩, ⟨%d2, H2⟩⟩
  iapply (mask_body c Set.univ _ _ _ _ _ _ _ (mblk V c 0 t) (mblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the mask pass, at every point. -/
theorem mask_obligation (c : Dev nD) : BodyObligation (mdat (F := F) V c) (defs₀ (F := F)) Variants.none () Set.univ := fun t => by
  rw [bigSep_W0, bigSep_W0]
  exact mask_point V c t

end

end Cert.KernelIdeal.Fr

end
-- ==== Proof.FrameKI.Run.lean ====
/-
  The whole run of @main: the mask pass, the reshape of the bias to one row, the accumulating product. The core's
  buffer contents at each boundary are a fold from the launch memory: a region leaves each of its arrays at what its
  write-backs fold to and every other buffer as entered; the host line writes only its own result. Every weakly fair
  execution terminates with the result array at what the second region's write-backs leave and every argument as launched.
-/
import proofs.«156875_j52209622450452_2_alg».proof.Proof.FrameKI.AccBody
import proofs.«156875_j52209622450452_2_alg».proof.Proof.FrameKI.Mask

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the mask pass's entry). -/
abbrev W0 : Dev nD → Valuation τ sig (Elt F) := fun c b => (s₀ m ρ).mem ((c : Dev nD), b)
abbrev V0r : (c : Dev nD) → (b : Ref sig .tc) → Buf (Elt F) ((c : Thread nD τ).loc b) := fun c b => W0 m ρ c b
/-- At the mask pass's exit: its arrays at what the pipeline leaves, every other buffer as entered. -/
def W1 (c : Dev nD) : Valuation τ sig (Elt F) :=
  Pipeline.withArrays spec0 c (W0 m ρ c) fun w => (mdat (V0r m ρ) c).arrAt w cfg0.N
theorem W1_arr (c : Dev nD) (w : Fin cfg0.W) :
    W1 m ρ c (Proc.devRef .tc (Pipeline.arrRef spec0 w)) = (mdat (V0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1r : (c : Dev nD) → (b : Ref sig .tc) → Buf (Elt F) ((c : Thread nD τ).loc b) := fun c b => W1 m ρ c b
theorem hF0 (c : Dev nD) (w : Fin cfg0.W) : (mdat (V0r m ρ) c).arrAt w cfg0.N = V1r m ρ c (Pipeline.arrRef spec0 w) :=
  (W1_arr m ρ c w).symm
theorem hrest0 (c : Dev nD) : ∀ b, b ∉ Finset.univ.image (Pipeline.arrRef spec0) → V1r m ρ c b = V0r m ρ c b :=
  fun b hb => W1_of_ne m ρ c b fun w e => hb (Finset.mem_image.mpr ⟨w, Finset.mem_univ _, e⟩)

/-- After the reshape of the bias (the accumulating region's entry). -/
abbrev W2 : Dev nD → Valuation τ sig (Elt F) := fun c => StableHlo.after hostOps1 (W1 m ρ c)
abbrev V2r : (c : Dev nD) → (b : Ref sig .tc) → Buf (Elt F) ((c : Thread nD τ).loc b) := fun c b => W2 m ρ c b
/-- At the accumulating region's exit. -/
def W3 (c : Dev nD) : Valuation τ sig (Elt F) :=
  Pipeline.withArrays spec1 c (W2 m ρ c) fun w => (adat (V2r m ρ) c).arrAt w cfg1.N
theorem W3_arr (c : Dev nD) (w : Fin cfg1.W) :
    W3 m ρ c (Proc.devRef .tc (Pipeline.arrRef spec1 w)) = (adat (V2r m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3r : (c : Dev nD) → (b : Ref sig .tc) → Buf (Elt F) ((c : Thread nD τ).loc b) := fun c b => W3 m ρ c b
theorem hF1 (c : Dev nD) (w : Fin cfg1.W) : (adat (V2r m ρ) c).arrAt w cfg1.N = V3r m ρ c (Pipeline.arrRef spec1 w) :=
  (W3_arr m ρ c w).symm
theorem hrest1 (c : Dev nD) : ∀ b, b ∉ Finset.univ.image (Pipeline.arrRef spec1) → V3r m ρ c b = V2r m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((adat (V2r m ρ) c).arrAt_in 0 rfl _).trans (aA_eq (V2r m ρ) c 0))
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 0).trans (((mdat (V0r m ρ) c).arrAt_in 0 rfl _).trans (mA_eq (V0r m ρ) c 0))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := (W1_arr m ρ c 1).trans (((mdat (V0r m ρ) c).arrAt_in 1 rfl _).trans (mA_eq (V0r m ρ) c 1))
    _ = m ((c : Thread nD τ).loc main_arg3) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => mdat (V0r m ρ) c
  | ⟨1, _⟩ => fun c => adat (V2r m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-- The host line as a segment. -/
abbrev hseg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ) R

/-! ## The regions as segments -/

set_option backward.isDefEq.respectTransparency.types false in
/-- The mask pass over the thread state: entered from the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (mask_obligation (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0r m ρ c) (V1r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The accumulating region over the thread state: entered from `W2`, left at `W3`. The scratch enters the
    invariant with the rest of the scoped buffers and leaves it the same way. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (acc_obligation (V2r m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (acc_in (V2r m ρ) c)
    unfold Pipeline.ΦA
    iintro ⟨Hp, -, Hr⟩
    isplitl [Hr]; · iexact Hr
    iexact Hp
  hout c := by
    rw [Pipeline.ownSems0_none]
    refine BIBase.Entails.trans (acc_out (V2r m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2r m ρ c) (V3r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state has every unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run read at the result array and the arguments: the result holds what the accumulating region's write-backs
    fold to, each argument its launch contents. -/
theorem run_result : θ_run defs (onTc (τ := τ) (main (F := F))) ⟨m, fun _ => 0, ρ⟩ (fun r => ∀ c : Dev nD,
      r.2.mem ((c.tc : Thread nD τ).loc main_v2) = (adat (V2r m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
    ⟨(h c _ (mem_uc main_v2 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.KernelIdeal.Fr

end
-- ==== Proof.PayloadMask.lean ====
/-
  THE MASK PASS'S PAYLOAD, read at an index at the ideal values.
  The pass multiplies the weight block by the mask block elementwise, after narrowing each to the 16-bit format. At the
  ideal values a change of format is the identity and the product is the extended reals' product, so the stored element
  at an index is the weight there times the mask there.
-/
import proofs.«156875_j52209622450452_2_alg».proof.Proof.Gen.KernelIdeal.Skeleton
import Idealize.ShloMosaic.Lib.ValueIdx

noncomputable section

namespace Cert.KernelIdeal.PayloadMask

open Idealize.ShloMosaic Idealize.ShloMosaic.ValueIdx Cert.KernelIdeal Cert.KernelIdeal.Gen

/-- The masked weight at an index: the weight's element times the mask's element, as extended reals. -/
theorem k0_pay1_apply (v0 v2 : Vec Ideal S256x4096 .f32) (j : S256x4096.Idx) :
    k0_pay1 (F := Ideal) v0 v2 j = (v0 j : EReal) * (v2 j : EReal) := rfl

end Cert.KernelIdeal.PayloadMask

end
-- ==== Proof.Val.Mask.lean ====
/-
  The masked weight as one array. At Ideal every point of the mask pass writes back its 256-row block of the
  elementwise product weight · mask (the change of float format is the identity), and the sixteen blocks tile the
  array: after the pass the array holds the product, index by index.
-/
import proofs.«156875_j52209622450452_2_alg».proof.Proof.FrameKI.Mask
import proofs.«156875_j52209622450452_2_alg».proof.Proof.PayloadMask
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr
open Idealize.ShloMosaic.ValueIdx

section
variable (V : (c : Dev nD) → (b : Ref sig .tc) → Buf (Elt Ideal) ((c : Thread nD τ).loc b))

theorem hz2 : (![0, 0] : Fin 2 → Nat) = fun _ => 0 := funext fun a => by fin_cases a <;> rfl

/-- The elementwise product of the weight and the mask. -/
def GM (a0 a1 : S4096x4096.Idx → Elt Ideal .f32) : S4096x4096.Idx → Elt Ideal .bf16 := fun i => ((a0 i : EReal) * (a1 i : EReal) : EReal)

/-- The product at two indices that are one index is the product array there. -/
theorem GM_at (a0 a1 : S4096x4096.Idx → Elt Ideal .f32) (e0 e1 e2 : S4096x4096.Idx) (h0 : e0 = e2) (h1 : e1 = e2) :
    ((a0 e0 : EReal) * (a1 e1 : EReal) : EReal) = GM a0 a1 e2 := by subst h0 h1; rfl

/-- The three windows of the mask pass move together, one block of rows per point. -/
theorem midx : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 15 ∧ win0_2.index t (1 : Fin 2) ≤ 0 :=
  (by decide +kernel : ∀ t : Fin grid0.N, _)

/-- Every block of rows is some point's. -/
theorem monto : ∀ (q0 : Fin 16), ∃ t : Fin cfg0.N, win0_2.index t = ![q0.val, 0] :=
  (by decide +kernel : ∀ (q0 : Fin 16), ∃ t : Fin grid0.N, win0_2.index t = ![q0.val, 0])

/-- What point `t` writes back is its block of the product of the two arrays as the pass finds them. -/
theorem mflushed_eq (c : Dev nD) (t : Fin cfg0.N) :
    (mdat V c).flushed 2 t = ((cfg0.win 2).blk t).view.read (Elt Ideal) (GM (V c main_arg1) (V c main_arg3)) := by
  show (cfg0.win 2).cut (grid0.coords t) ((mdat V c).after 2 t) = _
  rw [mafter2]
  unfold mout
  rw [View.canon_unit_zero hz2]
  simp only [View.ld_unit_zero (S := S256x4096) hz2]
  obtain ⟨e0, e1, e2, e3, e4, e5⟩ := midx t
  funext j
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 4096 + 1 * (j 1).val = win0_2.index t (1 : Fin 2) * 4096 + 1 * (j 1).val; omega
  exact GM_at (V c main_arg1) (V c main_arg3) (((cfg0.win 0).blk t).view.emb j) (((cfg0.win 1).blk t).view.emb j) (((cfg0.win 2).blk t).view.emb j) h0 h1

/-- An index of the array is in point `t`'s block iff each coordinate is in the block's range on its axis. -/
theorem mmem_blk (t : Fin cfg0.N) (i : S4096x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v0).slice (win0_2.rect t)).set ↔ _
  rw [View.set_slice_whole, Rect.mem_set_unit]
  exact Iff.rfl

/-- The blocks tile the array: row `r` is in the block of point `r / 256`. -/
theorem mcovered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := monto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mmem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- After the mask pass its output array holds the product weight · mask of the arrays it found. -/
theorem mfinal (c : Dev nD) : (mdat V c).arrAt 2 cfg0.N = GM (V c main_arg1) (V c main_arg3) :=
  (mdat V c).arrAt_eq_of_cover 2 (GM (V c main_arg1) (V c main_arg3)) (fun t _ => mflushed_eq V c t) mcovered

end

end Cert.KernelIdeal.Val

end
-- ==== Proof.Val.Pieces.lean ====
/-
  What each case of the accumulating body leaves, as the body's own arithmetic: at a first column block the scratch
  ends at the block's product added to the zero word; at any other block at the product added to what the scratch
  held; at a last block the output buffer takes that sum plus the bias row.
-/
import proofs.«156875_j52209622450452_2_alg».proof.Proof.FrameKI.Acc
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr
open Idealize.ShloMosaic.ValueIdx

variable {F : FTy → Type} [FloatOps F]

theorem hzz : (![0, 0] : Fin 2 → Nat) = fun _ => 0 := funext fun a => by fin_cases a <;> rfl

theorem soutFirst_eq (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : condFirst i) (hcL : ¬condLast i)
    (x0 : Vec F S2048x256 .f32) (x1 : Vec F S1024x256 .bf16) (x2 : Vec F S1x1024 .f32) :
    soutFirst c i arg3 harg3 arg4 harg4 arg5 harg5 arg6 harg6 arg7 harg7 hcF hcL x0 x1 x2 = k1_pay2 x0 (k1_pay1 (F := F)) x1 := by
  unfold soutFirst
  rw [View.read_writes_eq_canon _ _ _ (scoverFirst c i arg3 harg3 arg4 harg4 arg5 harg5 arg6 harg6 arg7 harg7 hcF hcL x0 x1 x2)]
  unfold runFirst
  dsimp only
  sl_unfold_words
  rw [View.canon_cons_unit_zero hzz]
  rw [View.readCov_unit_zero _ hzz]
  simp only [View.readAt_eq_ld, harg3.read_unread, harg4.read_unread, harg5.read_unread, harg7.read_unread, View.ld_unit_zero (S := S2048x256) hzz, View.ld_unit_zero (S := S1024x256) hzz, View.ld_unit_zero (S := S1x1024) hzz, View.ld_unit_zero (S := S2048x1024) hzz]

theorem soutMid_eq (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : ¬condLast i)
    (x0 : Vec F S2048x256 .f32) (x1 : Vec F S1024x256 .bf16) (x2 : Vec F S1x1024 .f32) (xs : Vec F S2048x1024 .f32) :
    soutMid c i arg3 harg3 arg4 harg4 arg5 harg5 arg6 harg6 arg7 harg7 hcF hcL x0 x1 x2 xs = k1_pay2 x0 xs x1 := by
  unfold soutMid
  rw [View.read_writes_eq_canon _ _ _ (scoverMid c i arg3 harg3 arg4 harg4 arg5 harg5 arg6 harg6 arg7 harg7 hcF hcL x0 x1 x2 xs)]
  unfold runMid
  dsimp only
  sl_unfold_words
  rw [View.canon_cons_unit_zero hzz]
  simp only [View.readAt_eq_ld, harg3.read_unread, harg4.read_unread, harg5.read_unread, harg7.read_unread, View.ld_unit_zero (S := S2048x256) hzz, View.ld_unit_zero (S := S1024x256) hzz, View.ld_unit_zero (S := S1x1024) hzz, View.ld_unit_zero (S := S2048x1024) hzz]

theorem soutLast_eq (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : condLast i)
    (x0 : Vec F S2048x256 .f32) (x1 : Vec F S1024x256 .bf16) (x2 : Vec F S1x1024 .f32) (xs : Vec F S2048x1024 .f32) :
    soutLast c i arg3 harg3 arg4 harg4 arg5 harg5 arg6 harg6 arg7 harg7 hcF hcL x0 x1 x2 xs = k1_pay2 x0 xs x1 := by
  unfold soutLast
  rw [View.read_writes_eq_canon _ _ _ (scoverLast c i arg3 harg3 arg4 harg4 arg5 harg5 arg6 harg6 arg7 harg7 hcF hcL x0 x1 x2 xs)]
  unfold runLast
  dsimp only
  sl_unfold_words
  rw [View.canon_cons_unit_zero hzz]
  simp only [View.readAt_eq_ld, harg3.read_unread, harg4.read_unread, harg5.read_unread, harg7.read_unread, View.ld_unit_zero (S := S2048x256) hzz, View.ld_unit_zero (S := S1024x256) hzz, View.ld_unit_zero (S := S1x1024) hzz, View.ld_unit_zero (S := S2048x1024) hzz]

theorem outLast_eq (c : Dev nD) (i : grid1.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hcF : ¬condFirst i) (hcL : condLast i)
    (x0 : Vec F S2048x256 .f32) (x1 : Vec F S1024x256 .bf16) (x2 : Vec F S1x1024 .f32) (xs : Vec F S2048x1024 .f32) :
    outLast c i arg3 harg3 arg4 harg4 arg5 harg5 arg6 harg6 arg7 harg7 hcF hcL x0 x1 x2 xs = k1_pay3 (k1_pay2 x0 xs x1) x2 := by
  unfold outLast
  rw [View.read_writes_eq_canon _ _ _ (coverLast c i arg3 harg3 arg4 harg4 arg5 harg5 arg6 harg6 arg7 harg7 hcF hcL x0 x1 x2 xs)]
  unfold runLast
  dsimp only
  sl_unfold_words
  rw [View.canon_cons_unit_zero hzz]
  rw [View.readCov_unit_zero _ hzz]
  simp only [View.readAt_eq_ld, harg3.read_unread, harg4.read_unread, harg5.read_unread, harg7.read_unread, View.ld_unit_zero (S := S2048x256) hzz, View.ld_unit_zero (S := S1024x256) hzz, View.ld_unit_zero (S := S1x1024) hzz, View.ld_unit_zero (S := S2048x1024) hzz]

end Cert.KernelIdeal.Val

end
-- ==== Proof.LibContractLast.lean ====
/-
  A MATRIX PRODUCT THAT CONTRACTS THE LAST AXIS OF BOTH OPERANDS, read at an index, at the ideal values.
  For an m×k matrix A and an n×k matrix B — the layout jnp's einsum 'th,fh->tf' keeps, each output entry the inner
  product of a row of A with a row of B — the product on the matrix unit into a zero accumulator, and the host's
  dot_general with the same dimension numbers, are at (a, b) the sum over c of A(a, c) · B(b, c). Every lemma holds for
  all extents m, k, n.
-/
import Idealize.ShloMosaic.PureOps.Ideal
import Idealize.ShloMosaic.PureOps.Ideal.Laws
import Idealize.ShloMosaic.Lib.ValueIdx

noncomputable section

open scoped BigOperators

namespace Idealize.ShloMosaic.ContractLast

open Idealize.ShloMosaic Idealize.ShloMosaic.ValueIdx

/-- The one contracted coordinate, as a number below `k`. -/
abbrev contr (m k n : Nat) : (DotDims.transposedRhs m k n).contr.Idx ≃ Fin k :=
  contrEquiv1 (DotDims.transposedRhs m k n) k rfl rfl

/-- The left operand's free axis follows the output's row. -/
theorem lhsIdx_val0 {m k n : Nat} (j : (⟨2, ![m, n]⟩ : Shape).Idx) (q : (DotDims.transposedRhs m k n).contr.Idx) :
    ((DotDims.transposedRhs m k n).lhsIdx j q 0).val = (j 0).val := by
  unfold DotDims.lhsIdx
  rw [dif_neg (show ¬(0 : Fin (⟨2, ![m, k]⟩ : Shape).rank) ∈ (DotDims.transposedRhs m k n).lhsBatch from List.not_mem_nil),
    dif_pos (show (0 : Fin (⟨2, ![m, k]⟩ : Shape).rank) ∈ (DotDims.transposedRhs m k n).lhsNonContracting from List.mem_singleton.mpr rfl)]
  rfl

/-- The left operand's last axis is the contracted coordinate. -/
theorem lhsIdx_val1 {m k n : Nat} (j : (⟨2, ![m, n]⟩ : Shape).Idx) (q : (DotDims.transposedRhs m k n).contr.Idx) :
    ((DotDims.transposedRhs m k n).lhsIdx j q 1).val = (q ⟨0, (Nat.zero_lt_one : 0 < 1)⟩).val :=
  (DotDims.transposedRhs m k n).lhsIdx_val_of_single rfl j q

/-- The right operand's free axis follows the output's column. -/
theorem rhsIdx_val0 {m k n : Nat} (j : (⟨2, ![m, n]⟩ : Shape).Idx) (q : (DotDims.transposedRhs m k n).contr.Idx) :
    ((DotDims.transposedRhs m k n).rhsIdx j q 0).val = (j 1).val := by
  unfold DotDims.rhsIdx
  rw [dif_neg (show ¬(0 : Fin (⟨2, ![n, k]⟩ : Shape).rank) ∈ (DotDims.transposedRhs m k n).rhsBatch from List.not_mem_nil),
    dif_pos (show (0 : Fin (⟨2, ![n, k]⟩ : Shape).rank) ∈ (DotDims.transposedRhs m k n).rhsNonContracting from List.mem_singleton.mpr rfl)]
  rfl

/-- The right operand's last axis is the contracted coordinate. -/
theorem rhsIdx_val1 {m k n : Nat} (j : (⟨2, ![m, n]⟩ : Shape).Idx) (q : (DotDims.transposedRhs m k n).contr.Idx) :
    ((DotDims.transposedRhs m k n).rhsIdx j q 1).val = (q ⟨0, (Nat.zero_lt_one : 0 < 1)⟩).val :=
  (DotDims.transposedRhs m k n).rhsIdx_val_of_single rfl j q

/-- The left operand's index at output `(a, b)` and contracted coordinate `c` is `(a, c)`. -/
theorem lhsIdx_eq {m k n : Nat} (a : Fin m) (b : Fin n) (c : Fin k) :
    (DotDims.transposedRhs m k n).lhsIdx (ix2 a b) ((contr m k n).symm c) = ix2 a c := by
  have hc := contrEquiv1_symm_val (DotDims.transposedRhs m k n) k rfl rfl c
  funext ax; apply Fin.ext
  match ax with
  | ⟨0, _⟩ => exact lhsIdx_val0 _ _
  | ⟨1, _⟩ => exact (lhsIdx_val1 _ _).trans hc

/-- The right operand's index at output `(a, b)` and contracted coordinate `c` is `(b, c)`. -/
theorem rhsIdx_eq {m k n : Nat} (a : Fin m) (b : Fin n) (c : Fin k) :
    (DotDims.transposedRhs m k n).rhsIdx (ix2 a b) ((contr m k n).symm c) = ix2 b c := by
  have hc := contrEquiv1_symm_val (DotDims.transposedRhs m k n) k rfl rfl c
  funext ax; apply Fin.ext
  match ax with
  | ⟨0, _⟩ => exact rhsIdx_val0 _ _
  | ⟨1, _⟩ => exact (rhsIdx_val1 _ _).trans hc

/-- The product on the matrix unit into the zero accumulator, read at `(a, b)`: the inner product of row `a` of the
    left operand with row `b` of the right. -/
theorem matmul_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contr m k n).symm]
  refine Finset.sum_congr rfl fun c _ => ?_
  rw [lhsIdx_eq, rhsIdx_eq]

/-- The host's dot_general with the same dimension numbers, read at `(a, b)`: the same inner product. -/
theorem dotGeneral_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    Host.dotGeneral (DotDims.transposedRhs m k n) prec A B (ix2 a b) = ∑ c : Fin k, A (ix2 a c) * B (ix2 b c) := by
  simp only [Host.dotGeneral]
  rw [Ideal.dotGeneral_apply, ← Equiv.sum_comp (contr m k n).symm]
  refine Finset.sum_congr rfl fun c _ => ?_
  rw [lhsIdx_eq, rhsIdx_eq]

end Idealize.ShloMosaic.ContractLast

end
-- ==== Proof.PayloadAcc.lean ====
/-
  THE ACCUMULATION STEP'S PAYLOADS, read at an index at the ideal values.
  The step keeps a running block of partial sums. Its first payload is the block it starts from, zero everywhere. Its
  second adds to the running block the product of an input block (2048 rows of 256) with a masked-weight block (1024
  rows of 256), both contracted on their last axis: at (a, b) the running value plus the inner product of row a of the
  input block with row b of the weight block. Its third adds a bias row to every row of the block. At the ideal values
  a change of format and a shape cast to the same shape are the identity, and the arithmetic is the extended reals'.
-/
import proofs.«156875_j52209622450452_2_alg».proof.Proof.Gen.KernelIdeal.Skeleton
import proofs.«156875_j52209622450452_2_alg».proof.Proof.LibContractLast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadAcc

open Idealize.ShloMosaic Idealize.ShloMosaic.ValueIdx Cert.KernelIdeal Cert.KernelIdeal.Gen

/-- The block the accumulation starts from is zero at every index. -/
theorem k1_pay1_apply (j : S2048x1024.Idx) : k1_pay1 (F := Ideal) j = (0 : EReal) := by
  unfold k1_pay1
  show shapeCast S2048x1024 (broadcast S2048x1024 (Scalar.ofBits (F := Ideal) .f32 0x00000000#32)) _ j = _
  rw [shapeCast_self, broadcast_apply]
  exact Ideal.ofBits_zero_f32

/-- One accumulation step at `(a, b)`: the running value plus the inner product of the input block's row `a` with the
    masked-weight block's row `b`. -/
theorem k1_pay2_apply (v3 : Vec Ideal S2048x256 .f32) (v5 : Vec Ideal S2048x1024 .f32) (v6 : Vec Ideal S1024x256 .bf16)
    (a : Fin 2048) (b : Fin 1024) :
    k1_pay2 (F := Ideal) v3 v5 v6 (ix2 a b)
      = (v5 (ix2 a b) : EReal) + ∑ k : Fin 256, (v3 (ix2 a k) : EReal) * (v6 (ix2 b k) : EReal) := by
  unfold k1_pay2
  show shapeCast S2048x1024 (addf v5 (matmul dot_S2048x256_S1024x256_S2048x1024_1_1_0_0_n_n none
      (truncf .bf16 v3 _) (shapeCast S1024x256 v6 _) (constant (F := Ideal) S2048x1024 .f32 0x00000000#32))) _ (ix2 a b) = _
  rw [shapeCast_self, shapeCast_self, addf_apply]
  refine congrArg (fun t : EReal => (v5 (ix2 a b) : EReal) + t) ?_
  exact ContractLast.matmul_zero_apply none _ _ a b

/-- The bias step at `(a, b)`: the accumulated value plus the bias row's entry `b`. -/
theorem k1_pay3_apply (v16 : Vec Ideal S2048x1024 .f32) (v17 : Vec Ideal S1x1024 .f32) (a : Fin 2048) (b : Fin 1024) :
    k1_pay3 (F := Ideal) v16 v17 (ix2 a b) = (v16 (ix2 a b) : EReal) + (v17 (ix2 (0 : Fin 1) b) : EReal) := by
  unfold k1_pay3
  show addf (F := Ideal) (φ := .f32) v16
      (broadcastTo S2048x1024 (shapeCast S1x1024 (v17 : FVec Ideal S1x1024 .f32) _ : FVec Ideal S1x1024 .f32) _) (ix2 a b) = _
  rw [addf_apply, broadcastTo_1b_ab_apply, shapeCast_self]

end Cert.KernelIdeal.PayloadAcc

end
-- ==== Proof.Spec.lean ====
/-
  THE SPECIFICATION: a masked dense layer with bias, over the extended reals, and the law that lets a contraction be
  accumulated in blocks.

  For an input matrix x (16384 rows, 4096 columns), a weight matrix w and a mask mk (4096 by 4096 each) and a bias row
  bs (4096 entries), the layer's output at row a and column o is
      ( sum over k < 4096 of  x(a, k) * ( w(o, k) * mk(o, k) ) )  +  bs(o):
  each output column is the inner product of an input row with a MASKED weight row, plus that column's bias.

  The contraction over 4096 places may be taken in 16 blocks of 256 places each: the place is 256 * block + offset. Only
  commutativity and associativity of addition are used, so the law holds in every commutative additive monoid, the
  extended reals with their two infinities included.
-/
import Idealize.ShloMosaic.PureOps.Ideal
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

/-- The input's (and the output's) shape: 16384 rows of 4096. -/
abbrev XShape : Shape := ⟨2, ![16384, 4096]⟩
/-- The weight's and the mask's shape: 4096 output columns, each a row of 4096. -/
abbrev WShape : Shape := ⟨2, ![4096, 4096]⟩
/-- The bias's shape: one number per output column. -/
abbrev BShape : Shape := ⟨1, ![4096]⟩

/-- The masked dense layer with bias, at an output index `i = (a, o)`. -/
def G (x : XShape.Idx → EReal) (w mk : WShape.Idx → EReal) (bs : BShape.Idx → EReal) : XShape.Idx → EReal :=
  fun i => (∑ k : Fin 4096, x (ix2 (i 0) k) * (w (ix2 (i 1) k) * mk (ix2 (i 1) k))) + bs (ix1 (i 1))

/-- The layer at `(a, o)`, the index given by its coordinates. -/
theorem G_apply (x : XShape.Idx → EReal) (w mk : WShape.Idx → EReal) (bs : BShape.Idx → EReal) (a : Fin 16384) (o : Fin 4096) :
    G x w mk bs (ix2 a o) = (∑ k : Fin 4096, x (ix2 a k) * (w (ix2 o k) * mk (ix2 o k))) + bs (ix1 o) := rfl

/-- THE BLOCK LAW: a sum over 4096 places taken in 16 blocks of 256 is the whole sum. The places are matched with the
    pairs (block, offset) by `place = offset + 256 * block`, a bijection, and a sum over pairs is the iterated sum. -/
theorem sum_blocks {M : Type*} [AddCommMonoid M] (f : Fin 4096 → M) :
    ∑ kb : Fin 16, ∑ kk : Fin 256, f ⟨kb.val * 256 + kk.val, by have := kb.isLt; have := kk.isLt; omega⟩ = ∑ k : Fin 4096, f k := by
  have e := Equiv.sum_comp (finProdFinEquiv (m := 16) (n := 256)) f
  rw [Fintype.sum_prod_type] at e
  rw [← e]
  refine Finset.sum_congr rfl fun kb _ => Finset.sum_congr rfl fun kk _ => congrArg f (Fin.ext ?_)
  show kb.val * 256 + kk.val = kk.val + 256 * kb.val
  omega

/-- The same law with the first `n` blocks only (`n ≤ 16`): the partial sums an accumulator holds after `n` blocks,
    as a sum over the places below `256 * n`. Stated over naturals so that it can be stepped block by block. -/
theorem sum_blocks_range {M : Type*} [AddCommMonoid M] (f : ℕ → M) :
    ∀ n : ℕ, ∑ kb ∈ Finset.range n, ∑ kk ∈ Finset.range 256, f (kb * 256 + kk) = ∑ k ∈ Finset.range (n * 256), f k
  | 0 => by simp
  | n + 1 => by
    rw [Finset.sum_range_succ, sum_blocks_range f n, Nat.succ_mul, Finset.sum_range_add]

end Cert.Spec

end
-- ==== Proof.AccMath.lean ====
/-
  THE ACCUMULATION OVER A RUN OF STEPS, and the finished block against the specification, at the ideal values.
  A run of steps is numbered 0, 1, 2, …; the steps come in groups of 16. At the first step of a group the running block
  restarts from zero and takes in that step's product; at every other step it adds the step's product to what the
  previous step left. So after step n the running block is the sum of the products of the steps met since the group
  began: steps n - n mod 16, …, n. Nothing but 0 + y = y and associativity of addition is used.
  At the last step of a group (n mod 16 = 15) the sixteen column blocks of 256 have all been met; if step kb of the group
  holds columns 256·kb … 256·kb + 255 of the input rows R … R + 2047 and of the masked weight rows C … C + 1023, then by
  the block law the running block is the whole contraction over 4096 places, and adding the bias row gives the
  specification's value at (R + a, C + b).
-/
import proofs.«156875_j52209622450452_2_alg».proof.Proof.PayloadAcc
import proofs.«156875_j52209622450452_2_alg».proof.Proof.Spec

noncomputable section

open scoped BigOperators

namespace Cert.KernelIdeal.AccMath

open Idealize.ShloMosaic Idealize.ShloMosaic.ValueIdx Cert.KernelIdeal Cert.KernelIdeal.Gen Cert.KernelIdeal.PayloadAcc Cert.Spec

/-- After step `n` the running block is the sum, over the steps of `n`'s group up to `n`, of each step's inner products. -/
theorem acc_closed (X : ℕ → Vec Ideal S2048x256 .f32) (Wt : ℕ → Vec Ideal S1024x256 .bf16) (s : ℕ → Vec Ideal S2048x1024 .f32)
    (h0 : ∀ n, n < 512 → n % 16 = 0 → s n = k1_pay2 (F := Ideal) (X n) (k1_pay1 (F := Ideal)) (Wt n))
    (h1 : ∀ n, n < 512 → n % 16 ≠ 0 → s n = k1_pay2 (F := Ideal) (X n) (s (n - 1)) (Wt n)) :
    ∀ n, n < 512 → ∀ (a : Fin 2048) (b : Fin 1024),
      (s n (ix2 a b) : EReal)
        = ∑ kb ∈ Finset.range (n % 16 + 1), ∑ kk : Fin 256,
            (X (n - n % 16 + kb) (ix2 a kk) : EReal) * (Wt (n - n % 16 + kb) (ix2 b kk) : EReal) := by
  intro n
  induction n using Nat.strong_induction_on with
  | _ n ih =>
    intro hn a b
    by_cases hm : n % 16 = 0
    · -- a group's first step: zero plus this step's product; the group so far is this one step
      rw [h0 n hn hm, k1_pay2_apply, k1_pay1_apply, zero_add, hm]
      simp only [Nat.zero_add, Finset.sum_range_one, Nat.sub_zero, Nat.add_zero]
    · -- a later step: what the previous step left, plus this step's product, the new last term of the sum
      obtain ⟨m, rfl⟩ : ∃ m, n = m + 1 := ⟨n - 1, by omega⟩
      obtain ⟨r, hr⟩ : ∃ r, (m + 1) % 16 = r + 1 := ⟨(m + 1) % 16 - 1, by omega⟩
      have hmr : m % 16 = r := by omega
      have hbase : m + 1 - (r + 1) = m - r := by omega
      have hlast : m - r + (r + 1) = m + 1 := by omega
      rw [h1 (m + 1) hn hm, k1_pay2_apply, Nat.add_sub_cancel, ih m (Nat.lt_succ_self m) (by omega) a b, hr, hmr, hbase,
        Finset.sum_range_succ _ (r + 1), hlast]

/-- At a group's last step the finished block, with the bias row added, is the specification on the block's rows and
    columns. -/
theorem out_block_eq_G (X : ℕ → Vec Ideal S2048x256 .f32) (Wt : ℕ → Vec Ideal S1024x256 .bf16) (s : ℕ → Vec Ideal S2048x1024 .f32)
    (h0 : ∀ n, n < 512 → n % 16 = 0 → s n = k1_pay2 (F := Ideal) (X n) (k1_pay1 (F := Ideal)) (Wt n))
    (h1 : ∀ n, n < 512 → n % 16 ≠ 0 → s n = k1_pay2 (F := Ideal) (X n) (s (n - 1)) (Wt n))
    (B : Vec Ideal S1x1024 .f32) (n : ℕ) (hn : n < 512) (hn15 : n % 16 = 15)
    (R C : ℕ) (hR : R + 2048 ≤ 16384) (hC : C + 1024 ≤ 4096)
    (x : XShape.Idx → EReal) (w mk : WShape.Idx → EReal) (bs : BShape.Idx → EReal)
    (hX : ∀ kb (hkb : kb < 16) (a : Fin 2048) (kk : Fin 256),
      (X (n - 15 + kb) (ix2 a kk) : EReal)
        = x (ix2 (⟨R + a.val, by have := a.isLt; omega⟩ : Fin 16384) (⟨kb * 256 + kk.val, by have := kk.isLt; omega⟩ : Fin 4096)))
    (hW : ∀ kb (hkb : kb < 16) (b : Fin 1024) (kk : Fin 256),
      (Wt (n - 15 + kb) (ix2 b kk) : EReal)
        = w (ix2 (⟨C + b.val, by have := b.isLt; omega⟩ : Fin 4096) (⟨kb * 256 + kk.val, by have := kk.isLt; omega⟩ : Fin 4096))
          * mk (ix2 (⟨C + b.val, by have := b.isLt; omega⟩ : Fin 4096) (⟨kb * 256 + kk.val, by have := kk.isLt; omega⟩ : Fin 4096)))
    (hB : ∀ b : Fin 1024, (B (ix2 (0 : Fin 1) b) : EReal) = bs (ix1 (⟨C + b.val, by have := b.isLt; omega⟩ : Fin 4096))) :
    ∀ (a : Fin 2048) (b : Fin 1024),
      (k1_pay3 (F := Ideal) (s n) B (ix2 a b) : EReal)
        = G x w mk bs (ix2 (⟨R + a.val, by have := a.isLt; omega⟩ : Fin 16384) (⟨C + b.val, by have := b.isLt; omega⟩ : Fin 4096)) := by
  intro a b
  -- the running block after the group's sixteen steps
  have hs : (s n (ix2 a b) : EReal)
      = ∑ kb ∈ Finset.range 16, ∑ kk : Fin 256, (X (n - 15 + kb) (ix2 a kk) : EReal) * (Wt (n - 15 + kb) (ix2 b kk) : EReal) := by
    have h := acc_closed X Wt s h0 h1 n hn a b
    rw [hn15] at h
    exact h
  rw [k1_pay3_apply, hs, hB b, G_apply]
  congr 1
  -- sixteen blocks of 256 places are the 4096 places
  rw [← sum_blocks, ← Fin.sum_univ_eq_sum_range (fun kb => ∑ kk : Fin 256,
    (X (n - 15 + kb) (ix2 a kk) : EReal) * (Wt (n - 15 + kb) (ix2 b kk) : EReal)) 16]
  refine Finset.sum_congr rfl fun kb _ => Finset.sum_congr rfl fun kk _ => ?_
  rw [hX kb.val kb.isLt a kk, hW kb.val kb.isLt b kk]

end Cert.KernelIdeal.AccMath

end
-- ==== Proof.Val.AccValue.lean ====
/-
  The result array as one function of the arrays the accumulating region finds. Point t = 64·i + 16·j + k works on the
  block of rows 2048·i …, of output columns 1024·j … and of inner columns 256·k …; the scratch after it holds the sum
  of the products of the inner blocks 0 … k, so that at k = 15 the block written back is the whole inner product plus
  the bias, and the 8 × 4 written blocks tile the result.
-/
import proofs.«156875_j52209622450452_2_alg».proof.Proof.FrameKI.Acc
import proofs.«156875_j52209622450452_2_alg».proof.Proof.Val.Pieces
import proofs.«156875_j52209622450452_2_alg».proof.Proof.AccMath
import proofs.«156875_j52209622450452_2_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr
open Idealize.ShloMosaic.ValueIdx

open Cert.Spec Cert.KernelIdeal.AccMath

section
variable (V : (c : Dev nD) → (b : Ref sig .tc) → Buf (Elt Ideal) ((c : Thread nD τ).loc b)) (c : Dev nD)

theorem lt512 (t : Fin cfg1.N) : t.val < 512 := lt_of_lt_of_eq t.isLt (show cfg1.N = 512 from N_1)

/-- Where each window's block sits at point `t`. -/
theorem aidx : ∀ t : Fin cfg1.N, win1_0.index t (0 : Fin 2) = t.val / 64 ∧ win1_0.index t (1 : Fin 2) = t.val % 16
    ∧ win1_1.index t (0 : Fin 2) = t.val / 16 % 4 ∧ win1_1.index t (1 : Fin 2) = t.val % 16
    ∧ win1_2.index t (0 : Fin 2) = 0 ∧ win1_2.index t (1 : Fin 2) = t.val / 16 % 4
    ∧ win1_3.index t (0 : Fin 2) = t.val / 64 ∧ win1_3.index t (1 : Fin 2) = t.val / 16 % 4 :=
  (by decide +kernel : ∀ t : Fin grid1.N, _)

theorem ix2_congr {n0 n1 : Nat} {a a' : Fin n0} {b b' : Fin n1} (ha : a.val = a'.val) (hb : b.val = b'.val) : ix2 a b = ix2 a' b' := by
  rw [Fin.ext ha, Fin.ext hb]

/-- The block of the first operand at point `t`, read at (a, kk). -/
theorem xblk_apply (t : Fin cfg1.N) (a : Fin 2048) (kk : Fin 256) :
    (ablk V c 0 t : Vec Ideal S2048x256 .f32) (ix2 a kk)
      = V c main_arg0 (ix2 (⟨t.val / 64 * 2048 + a.val, by have := lt512 t; omega⟩ : Fin 16384) (⟨t.val % 16 * 256 + kk.val, by omega⟩ : Fin 4096)) := by
  obtain ⟨e0, e1, -⟩ := aidx t
  show V c main_arg0 (((cfg1.win 0).blk t).view.emb (ix2 a kk)) = _
  refine congrArg (V c main_arg0) (funext fun d => Fin.ext ?_)
  match d with
  | ⟨0, _⟩ => show win1_0.index t (0 : Fin 2) * 2048 + 1 * a.val = t.val / 64 * 2048 + a.val; omega
  | ⟨1, _⟩ => show win1_0.index t (1 : Fin 2) * 256 + 1 * kk.val = t.val % 16 * 256 + kk.val; omega

/-- The block of the masked weight at point `t`, read at (b, kk). -/
theorem wblk_apply (t : Fin cfg1.N) (b : Fin 1024) (kk : Fin 256) :
    (ablk V c 1 t : Vec Ideal S1024x256 .bf16) (ix2 b kk)
      = V c main_v0 (ix2 (⟨t.val / 16 % 4 * 1024 + b.val, by omega⟩ : Fin 4096) (⟨t.val % 16 * 256 + kk.val, by omega⟩ : Fin 4096)) := by
  obtain ⟨-, -, e0, e1, -⟩ := aidx t
  show V c main_v0 (((cfg1.win 1).blk t).view.emb (ix2 b kk)) = _
  refine congrArg (V c main_v0) (funext fun d => Fin.ext ?_)
  match d with
  | ⟨0, _⟩ => show win1_1.index t (0 : Fin 2) * 1024 + 1 * b.val = t.val / 16 % 4 * 1024 + b.val; omega
  | ⟨1, _⟩ => show win1_1.index t (1 : Fin 2) * 256 + 1 * kk.val = t.val % 16 * 256 + kk.val; omega

/-- The block of the bias row at point `t`, read at (0, b). -/
theorem bblk_apply (t : Fin cfg1.N) (b : Fin 1024) :
    (ablk V c 2 t : Vec Ideal S1x1024 .f32) (ix2 (0 : Fin 1) b)
      = V c main_v1 (ix2 (0 : Fin 1) (⟨t.val / 16 % 4 * 1024 + b.val, by omega⟩ : Fin 4096)) := by
  obtain ⟨-, -, -, -, e0, e1, -⟩ := aidx t
  show V c main_v1 (((cfg1.win 2).blk t).view.emb (ix2 (0 : Fin 1) b)) = _
  refine congrArg (V c main_v1) (funext fun d => Fin.ext ?_)
  match d with
  | ⟨0, _⟩ => show win1_2.index t (0 : Fin 2) * 1 + 1 * 0 = 0; omega
  | ⟨1, _⟩ => show win1_2.index t (1 : Fin 2) * 1024 + 1 * b.val = t.val / 16 % 4 * 1024 + b.val; omega

/-- The blocks and the scratch as sequences over the points. -/
def Xs (n : ℕ) : Vec Ideal S2048x256 .f32 := if h : n < cfg1.N then ablk V c 0 ⟨n, h⟩ else fun _ => Classical.arbitrary _
def Ws (n : ℕ) : Vec Ideal S1024x256 .bf16 := if h : n < cfg1.N then ablk V c 1 ⟨n, h⟩ else fun _ => Classical.arbitrary _
def Ss (n : ℕ) : Vec Ideal S2048x1024 .f32 := if h : n < cfg1.N then (accAt V c n h).2 else fun _ => Classical.arbitrary _

theorem lt_N {n : ℕ} (h : n < 512) : n < cfg1.N := lt_of_lt_of_eq h (show 512 = cfg1.N from N_1.symm)

/-- At a first column block the scratch ends at the block's product over the zero word. -/
theorem acc_first (t : Fin cfg1.N) (h0 : t.val % 16 = 0) :
    (accAt V c t.val t.isLt).2 = k1_pay2 (F := Ideal) (ablk V c 0 t) (k1_pay1 (F := Ideal)) (ablk V c 1 t) := by
  have h1 : ¬ t.val % 16 = 15 := by omega
  rw [accAt_first V c t h0 h1]
  dsimp only
  exact soutFirst_eq c (grid1.coords t) (ms0 t) (hs0 t) (ms1 t) (hs1 t) (ms2 t) (hs2 t) (ms3 t) (hs3 t) scM (Memref.isWhole_whole _) ((hcondFirst t).mpr h0) (fun h => h1 ((hcondLast t).mp h)) (ablk V c 0 t) (ablk V c 1 t) (ablk V c 2 t)

/-- At any other block it ends at the block's product over what the point before left. -/
theorem acc_next (t : Fin cfg1.N) (h0 : ¬ t.val % 16 = 0) :
    (accAt V c t.val t.isLt).2 = k1_pay2 (F := Ideal) (ablk V c 0 t) (accAt V c (t.val - 1) (Nat.lt_of_le_of_lt (Nat.sub_le _ _) t.isLt)).2 (ablk V c 1 t) := by
  by_cases h1 : t.val % 16 = 15
  · rw [accAt_last V c t h0 h1]
    dsimp only
    exact soutLast_eq c (grid1.coords t) (ms0 t) (hs0 t) (ms1 t) (hs1 t) (ms2 t) (hs2 t) (ms3 t) (hs3 t) scM (Memref.isWhole_whole _) (fun h => h0 ((hcondFirst t).mp h)) ((hcondLast t).mpr h1) (ablk V c 0 t) (ablk V c 1 t) (ablk V c 2 t) (accAt V c (t.val - 1) (Nat.lt_of_le_of_lt (Nat.sub_le _ _) t.isLt)).2
  · rw [accAt_mid V c t h0 h1]
    dsimp only
    exact soutMid_eq c (grid1.coords t) (ms0 t) (hs0 t) (ms1 t) (hs1 t) (ms2 t) (hs2 t) (ms3 t) (hs3 t) scM (Memref.isWhole_whole _) (fun h => h0 ((hcondFirst t).mp h)) (fun h => h1 ((hcondLast t).mp h)) (ablk V c 0 t) (ablk V c 1 t) (ablk V c 2 t) (accAt V c (t.val - 1) (Nat.lt_of_le_of_lt (Nat.sub_le _ _) t.isLt)).2

theorem Ss_first : ∀ n, n < 512 → n % 16 = 0 → Ss V c n = k1_pay2 (F := Ideal) (Xs V c n) (k1_pay1 (F := Ideal)) (Ws V c n) := by
  intro n hn h0
  unfold Ss Xs Ws
  rw [dif_pos (lt_N hn), dif_pos (lt_N hn), dif_pos (lt_N hn)]
  exact acc_first V c ⟨n, lt_N hn⟩ h0

theorem Ss_next : ∀ n, n < 512 → n % 16 ≠ 0 → Ss V c n = k1_pay2 (F := Ideal) (Xs V c n) (Ss V c (n - 1)) (Ws V c n) := by
  intro n hn h0
  have hn1 : n - 1 < cfg1.N := lt_N (by omega)
  unfold Ss Xs Ws
  rw [dif_pos (lt_N hn), dif_pos (lt_N hn), dif_pos (lt_N hn), dif_pos hn1]
  exact acc_next V c ⟨n, lt_N hn⟩ h0

variable (x : XShape.Idx → EReal) (w mk : WShape.Idx → EReal) (bs : BShape.Idx → EReal)
variable (hx : ∀ i : XShape.Idx, (V c main_arg0 i : EReal) = x i)
variable (hw : ∀ i : WShape.Idx, (V c main_v0 i : EReal) = w i * mk i)
variable (hb : ∀ o : Fin 4096, (V c main_v1 (ix2 (0 : Fin 1) o) : EReal) = bs (ix1 o))

include hx hw hb in
/-- What a point of a last column block writes back is its block of the specification. -/
theorem aflushed_eq (t : Fin cfg1.N) (hf : (cfg1.win 3).flush t = true) :
    (adat V c).flushed 3 t = ((cfg1.win 3).blk t).view.read (Elt Ideal) (G x w mk bs) := by
  have h15 : t.val % 16 = 15 := (flush1_3 t).mp hf
  have h0 : ¬ t.val % 16 = 0 := by omega
  have hlt := lt512 t
  obtain ⟨-, -, -, -, -, -, e0, e1⟩ := aidx t
  show (cfg1.win 3).cut (grid1.coords t) ((adat V c).after 3 t) = _
  rw [aafter3, accAt_last V c t h0 h15]
  dsimp only
  rw [outLast_eq c (grid1.coords t) (ms0 t) (hs0 t) (ms1 t) (hs1 t) (ms2 t) (hs2 t) (ms3 t) (hs3 t) scM (Memref.isWhole_whole _) (fun h => h0 ((hcondFirst t).mp h)) ((hcondLast t).mpr h15) (ablk V c 0 t) (ablk V c 1 t) (ablk V c 2 t) (accAt V c (t.val - 1) (Nat.lt_of_le_of_lt (Nat.sub_le _ _) t.isLt)).2]
  have eS : k1_pay2 (F := Ideal) (ablk V c 0 t) (accAt V c (t.val - 1) (Nat.lt_of_le_of_lt (Nat.sub_le _ _) t.isLt)).2 (ablk V c 1 t) = Ss V c t.val := by
    unfold Ss
    rw [dif_pos t.isLt]
    exact (acc_next V c t h0).symm
  rw [eS]
  refine funext fun (j : S2048x1024.Idx) => ?_
  have key := out_block_eq_G (Xs V c) (Ws V c) (Ss V c) (Ss_first V c) (Ss_next V c) (ablk V c 2 t) t.val hlt h15
    (t.val / 64 * 2048) (t.val / 16 % 4 * 1024) (by omega) (by omega) x w mk bs
    (fun kb hkb a kk => by
      unfold Xs
      rw [dif_pos (lt_N (by omega : t.val - 15 + kb < 512))]
      rw [xblk_apply V c ⟨t.val - 15 + kb, lt_N (by omega)⟩ a kk, hx]
      exact congrArg x (ix2_congr (by show (t.val - 15 + kb) / 64 * 2048 + a.val = t.val / 64 * 2048 + a.val; omega) (by show (t.val - 15 + kb) % 16 * 256 + kk.val = kb * 256 + kk.val; omega)))
    (fun kb hkb b kk => by
      unfold Ws
      rw [dif_pos (lt_N (by omega : t.val - 15 + kb < 512))]
      rw [wblk_apply V c ⟨t.val - 15 + kb, lt_N (by omega)⟩ b kk, hw]
      have e : (ix2 (⟨(t.val - 15 + kb) / 16 % 4 * 1024 + b.val, by omega⟩ : Fin 4096) (⟨(t.val - 15 + kb) % 16 * 256 + kk.val, by omega⟩ : Fin 4096) : WShape.Idx)
          = ix2 (⟨t.val / 16 % 4 * 1024 + b.val, by omega⟩ : Fin 4096) (⟨kb * 256 + kk.val, by omega⟩ : Fin 4096) :=
        ix2_congr (by show (t.val - 15 + kb) / 16 % 4 * 1024 + b.val = t.val / 16 % 4 * 1024 + b.val; omega) (by show (t.val - 15 + kb) % 16 * 256 + kk.val = kb * 256 + kk.val; omega)
      exact congrArg (fun i => w i * mk i) e)
    (fun b => by
      rw [bblk_apply V c t b, hb])
    (j 0) (j 1)
  have hemb : ((cfg1.win 3).blk t).view.emb j = (ix2 (⟨t.val / 64 * 2048 + (j 0).val, by have := idx2_lt0 j; omega⟩ : Fin 16384) (⟨t.val / 16 % 4 * 1024 + (j 1).val, by have := idx2_lt1 j; omega⟩ : Fin 4096) : XShape.Idx) := by
    funext d; apply Fin.ext
    match d with
    | ⟨0, _⟩ => show win1_3.index t (0 : Fin 2) * 2048 + 1 * (j 0).val = t.val / 64 * 2048 + (j 0).val; omega
    | ⟨1, _⟩ => show win1_3.index t (1 : Fin 2) * 1024 + 1 * (j 1).val = t.val / 16 % 4 * 1024 + (j 1).val; omega
  show k1_pay3 (F := Ideal) (Ss V c t.val) (ablk V c 2 t) j = G x w mk bs (((cfg1.win 3).blk t).view.emb j)
  rw [hemb]
  have hj : j = ix2 (n0 := 2048) (n1 := 1024) (j 0) (j 1) := eq_ix2 j
  exact (congrArg (k1_pay3 (F := Ideal) (Ss V c t.val) (ablk V c 2 t)) hj).trans key

/-- An index of the result is in point `t`'s block iff each coordinate is in the block's range on its axis. -/
theorem amem_blk (t : Fin cfg1.N) (i : S16384x4096.Idx) :
    i ∈ ((cfg1.win 3).blk t).view.set ↔ ∀ a : Fin 2, win1_3.index t a * S2048x1024.size a ≤ (i a).val ∧ (i a).val < win1_3.index t a * S2048x1024.size a + S2048x1024.size a := by
  show i ∈ ((View.whole main_v2).slice (win1_3.rect t)).set ↔ _
  rw [View.set_slice_whole, Rect.mem_set_unit]
  exact Iff.rfl

/-- The written blocks tile the result: entry (r, o) is in the block of the point 64·(r / 2048) + 16·(o / 1024) + 15. -/
theorem acovered (i : S16384x4096.Idx) :
    ∃ t : Fin cfg1.N, (cfg1.win 3).flush t = true ∧ i ∈ ((cfg1.win 3).blk t).view.set := by
  have hi0 : (i 0).val < 16384 := (i 0).isLt
  have hi1 : (i 1).val < 4096 := (i 1).isLt
  let t : Fin cfg1.N := ⟨(i 0).val / 2048 * 64 + (i 1).val / 1024 * 16 + 15, lt_N (by omega)⟩
  have ht : t.val = (i 0).val / 2048 * 64 + (i 1).val / 1024 * 16 + 15 := rfl
  obtain ⟨-, -, -, -, -, -, e0, e1⟩ := aidx t
  refine ⟨t, (flush1_3 t).mpr (by omega), ?_⟩
  rw [amem_blk]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 1024 ≤ (i 1).val ∧ (i 1).val < win1_3.index t (1 : Fin 2) * 1024 + 1024; omega

include hx hw hb in
/-- After the accumulating region the result array holds the specification of the arrays the region found. -/
theorem afinal : (adat V c).arrAt 3 cfg1.N = G x w mk bs :=
  (adat V c).arrAt_eq_of_cover 3 (G x w mk bs) (fun t hf => aflushed_eq V c x w mk bs hx hw hb t hf) acovered

end

end Cert.KernelIdeal.Val

end
-- ==== Proof.Val.Entry.lean ====
/-
  What the accumulating region finds in the core's buffers, at Ideal: the first operand as launched, the masked weight
  at the elementwise product weight · mask the first pass left, the bias as one row. With these the result array
  after the run is the specification of the launch arrays.
-/
import proofs.«156875_j52209622450452_2_alg».proof.Proof.FrameKI.Run
import proofs.«156875_j52209622450452_2_alg».proof.Proof.Val.Mask
import proofs.«156875_j52209622450452_2_alg».proof.Proof.Val.AccValue
import Idealize.ShloMosaic.Lib.StableHlo.Run
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr
open Idealize.ShloMosaic.ValueIdx

open Cert.Spec

variable (m : (ℓ : Loc nD τ sig) → Buf (Elt Ideal) ℓ) (ρ : Dev nD → PrngReg)

/-- The reshape of the bias does not write `b`. -/
theorem host_keeps (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

theorem entry_arg0 (c : Dev nD) : V2r m ρ c main_arg0 = m ((c : Thread nD τ).loc main_arg0) :=
  (host_keeps m ρ c main_arg0 (by decide)).trans ((W1_of_ne m ρ c main_arg0 (by decide)).trans rfl)

theorem entry_v0 (c : Dev nD) : V2r m ρ c main_v0 = GM (m ((c : Thread nD τ).loc main_arg1)) (m ((c : Thread nD τ).loc main_arg3)) :=
  (host_keeps m ρ c main_v0 (by decide)).trans ((W1_arr m ρ c 2).trans (mfinal (V0r m ρ) c))

theorem entry_v1 (c : Dev nD) (o : Fin 4096) : (V2r m ρ c main_v1 (ix2 (0 : Fin 1) o) : EReal) = m ((c : Thread nD τ).loc main_arg2) (ix1 o) := by
  have e : (V2r m ρ c main_v1 : S1x4096.Idx → Elt Ideal .f32) = shapeCast S1x4096 (W1 m ρ c (Proc.devRef .tc main_arg2)) shapeCasts_S4096_S1x4096 := by
    show StableHlo.after hostOps1 (W1 m ρ c) (Proc.devRef .tc main_v1) = _
    after_results
    rfl
  have e2 : W1 m ρ c (Proc.devRef .tc main_arg2) = m ((c : Thread nD τ).loc main_arg2) :=
    (W1_of_ne m ρ c main_arg2 (by decide)).trans rfl
  refine (congrFun e (ix2 (0 : Fin 1) o)).trans ?_
  refine (shapeCast_addUnit_apply ![4096] (W1 m ρ c (Proc.devRef .tc main_arg2)) shapeCasts_S4096_S1x4096 (ix2 (0 : Fin 1) o)).trans ?_
  rw [e2]
  exact congrArg _ (funext fun d => match d with | ⟨0, _⟩ => rfl)

/-- THE KERNEL'S VALUE: after the run the result array holds the specification of the launch arrays. -/
theorem result_eq (c : Dev nD) :
    (adat (V2r m ρ) c).arrAt 3 cfg1.N
      = G (m ((c : Thread nD τ).loc main_arg0)) (m ((c : Thread nD τ).loc main_arg1)) (m ((c : Thread nD τ).loc main_arg3)) (m ((c : Thread nD τ).loc main_arg2)) :=
  afinal (V2r m ρ) c (m ((c : Thread nD τ).loc main_arg0)) (m ((c : Thread nD τ).loc main_arg1)) (m ((c : Thread nD τ).loc main_arg3)) (m ((c : Thread nD τ).loc main_arg2))
    (fun i => by rw [entry_arg0])
    (fun i => by rw [entry_v0]; rfl)
    (fun o => entry_v1 m ρ c o)

end Cert.KernelIdeal.Val

end
-- ==== Proof.RefIsG.lean ====
/-
  THE REFERENCE COMPUTES THE SPECIFICATION, at the ideal values.
  The reference multiplies the weight by the mask elementwise, contracts the input with the masked weight on the last
  axis of both, spreads the bias row over all rows and adds. Read at an output index (a, o), operation by operation,
  that is: the sum over k of x(a, k) * (w(o, k) * mk(o, k)), plus bs(o) — the specification.
-/
import proofs.«156875_j52209622450452_2_alg».proof.Proof.Gen.ReferenceIdeal.Read
import proofs.«156875_j52209622450452_2_alg».proof.Proof.Spec

noncomputable section

open scoped BigOperators

namespace Cert.RefIsG

open Idealize.ShloMosaic Idealize.ShloMosaic.ValueIdx Cert.ReferenceIdeal Cert.ReferenceIdeal.Gen Cert.ReferenceIdeal.Read Cert.Spec

/-- The contraction reads the input at `(a, k)`. -/
theorem lidx_eq (i : S16384x4096.Idx) (k : Fin 4096) : lidx_main_v1 i k = ix2 (i 0) k := by
  funext a
  match a with
  | ⟨0, _⟩ => rfl
  | ⟨1, _⟩ => rfl

/-- The contraction reads the masked weight at `(o, k)`. -/
theorem ridx_eq (i : S16384x4096.Idx) (k : Fin 4096) : ridx_main_v1 i k = ix2 (i 1) k := by
  funext a
  match a with
  | ⟨0, _⟩ => rfl
  | ⟨1, _⟩ => rfl

/-- The two broadcasts read the bias at `o`. -/
theorem bidx_eq (i : S16384x4096.Idx) : idx_main_v2 (idx_main_v3 i) = ix1 (i 1) := by
  funext a
  match a with
  | ⟨0, _⟩ => rfl

/-- The reference's result is the specification of the same four arrays (the reference's third argument is the bias,
    its fourth the mask). -/
theorem val_main_v4_eq_G (x0 : (⟨S16384x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .f32⟩ : BufTy).Contents (Elt Ideal)) :
    val_main_v4 (F := Ideal) x0 x1 x2 x3 = G x0 x1 x3 x2 := by
  funext i
  rw [val_main_v4_apply, val_main_v1_apply, val_main_v3_apply, val_main_v2_apply, bidx_eq]
  simp only [val_main_v0_apply, lidx_eq, ridx_eq]
  rfl

end Cert.RefIsG

end
-- ==== Proof.lean ====
/-
  The certificate of the masked linear layer  out = x · (weight ∘ mask)ᵀ + bias  against its reference.

  The kernel runs two regions. The first multiplies the weight by the mask entry by entry (through a narrower float
  format, which at Ideal is the identity) into an array of its own, sixteen blocks of 256 rows. The second takes a
  2048 × 1024 block of the result at a time and walks the 4096 inner columns in sixteen blocks of 256: a scratch buffer
  is reset to zero at the first block, gains the block's product x · wᵀ at every block, and at the last block the
  scratch plus the bias row is stored as the result block. The reference is one contraction over all 4096 inner
  columns plus the broadcast bias.

  At Ideal the two agree entry by entry: the scratch after inner block k holds the sum of the products of the blocks
  0 … k, a sum of sixteen sums of 256 terms is the sum of the 4096 terms (extended-real addition is associative and
  commutative, and zero is neutral — no finiteness is used), and both sides add the same bias entry.

  The frames: each region's proof data name what the body leaves in every staging buffer at every grid point; the
  second region's invariant carries the scratch's contents from one point to the next. The run composes the two
  regions and the reshape of the bias between them; every argument array ends as launched, and the result array ends
  at what the second region's write-backs fold to. The same frame is proved for the word-level program and for the
  idealized one; the ideal pass rewrote nothing, so that conjunct is trivial.
-/
import proofs.«156875_j52209622450452_2_alg».proof.Defs
import proofs.«156875_j52209622450452_2_alg».proof.Proof.Gen.Kernel
import proofs.«156875_j52209622450452_2_alg».proof.Proof.Gen.KernelIdeal
import proofs.«156875_j52209622450452_2_alg».proof.Proof.Gen.ReferenceIdeal
import proofs.«156875_j52209622450452_2_alg».proof.Proof.Gen.Pre_finite_inputs
import proofs.«156875_j52209622450452_2_alg».proof.Proof.Gen.ReferenceIdeal.Run
import proofs.«156875_j52209622450452_2_alg».proof.Proof.Gen.ReferenceIdeal.Read
import proofs.«156875_j52209622450452_2_alg».proof.Proof.FrameK.Run
import proofs.«156875_j52209622450452_2_alg».proof.Proof.FrameKI.Run
import proofs.«156875_j52209622450452_2_alg».proof.Proof.Val.Entry
import proofs.«156875_j52209622450452_2_alg».proof.Proof.RefIsG
import Idealize.ShloMosaic.Adequacy
import Idealize.ShloMosaic.Init

noncomputable section

namespace Cert.Proof

open Idealize.ShloMosaic Idealize.ShloMosaic.TcCoe Idealize.SL.Sem

/-- The word-level program runs to the end and leaves its arguments unchanged. -/
theorem frame_k : Cert.frame_Kernel := fun m ρ _ => Cert.Kernel.Fr.frame (F := Bits) m ρ

/-- So does the idealized program. -/
theorem frame_ki : Cert.frame_KernelIdeal := fun m ρ _ => Cert.KernelIdeal.Fr.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At Ideal both programs end with the result at the specification of the launch arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Val.result_eq m ρ c), (h c).2⟩)
      (Cert.KernelIdeal.Fr.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2, Cert.ReferenceIdeal.Read.val_main_v4_eq]
    exact Cert.RefIsG.val_main_v4_eq_G _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
